-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x48x48 : Shape := ⟨4, ![2, 64, 48, 48]⟩
abbrev S2x64x4x48x48 : Shape := ⟨5, ![2, 64, 4, 48, 48]⟩
abbrev S2x512x4x48x48 : Shape := ⟨5, ![2, 512, 4, 48, 48]⟩
abbrev S_ : Shape := ⟨0, ![]⟩

class Facts : Prop where
  bcast_S_S2x64x48x48 : S_.BroadcastsInDim S2x64x48x48 (![] : Fin 0 → Fin S2x64x48x48.rank)
  reducesTo_S2x64x48x48_S_d0_1_2_3 : S2x64x48x48.ReducesTo [0, 1, 2, 3] S_
  h_S_ : 0 < S_.numel
  bcast_S_S2x64x4x48x48 : S_.BroadcastsInDim S2x64x4x48x48 (![] : Fin 0 → Fin S2x64x4x48x48.rank)
  reducesTo_S2x64x4x48x48_S_d0_1_2_3_4 : S2x64x4x48x48.ReducesTo [0, 1, 2, 3, 4] S_
  bcast_S_S2x512x4x48x48 : S_.BroadcastsInDim S2x512x4x48x48 (![] : Fin 0 → Fin S2x512x4x48x48.rank)
  reducesTo_S2x512x4x48x48_S_d0_1_2_3_4 : S2x512x4x48x48.ReducesTo [0, 1, 2, 3, 4] S_

variable [Facts]

def fn {F : FTy → Type} [FloatOps F] (main_arg0 : FVec F S2x64x48x48 .f32) (main_arg1 : FVec F S2x64x4x48x48 .f32) (main_arg2 : FVec F S2x512x4x48x48 .f32) : IVec S_ 1 :=
  let main_v0 : FVec F S2x64x48x48 .f32 := Host.absf main_arg0
  let main_cst : FVec F S_ .f32 := constant S_ .f32 0x7F800000#32
  let main_v1 : FVec F S2x64x48x48 .f32 := broadcastInDim S2x64x48x48 ![] bcast_S_S2x64x48x48 main_cst
  let main_v2 : IVec S2x64x48x48 1 := cmpf .olt main_v0 main_v1
  let main_c : IVec S_ 1 := constantI S_ 1 1#1
  let main_v3 : IVec S_ 1 := (fun x v => Host.reduce IntOp.andi x v reducesTo_S2x64x48x48_S_d0_1_2_3 h_S_) main_v2 main_c
  let main_v4 : FVec F S2x64x4x48x48 .f32 := Host.absf main_arg1
  let main_cst_0 : FVec F S_ .f32 := constant S_ .f32 0x7F800000#32
  let main_v5 : FVec F S2x64x4x48x48 .f32 := broadcastInDim S2x64x4x48x48 ![] bcast_S_S2x64x4x48x48 main_cst_0
  let main_v6 : IVec S2x64x4x48x48 1 := cmpf .olt main_v4 main_v5
  let main_c_1 : IVec S_ 1 := constantI S_ 1 1#1
  let main_v7 : IVec S_ 1 := (fun x v => Host.reduce IntOp.andi x v reducesTo_S2x64x4x48x48_S_d0_1_2_3_4 h_S_) main_v6 main_c_1
  let main_v8 : IVec S_ 1 := andi main_v3 main_v7
  let main_v9 : FVec F S2x512x4x48x48 .f32 := Host.absf main_arg2
  let main_cst_2 : FVec F S_ .f32 := constant S_ .f32 0x7F800000#32
  let main_v10 : FVec F S2x512x4x48x48 .f32 := broadcastInDim S2x512x4x48x48 ![] bcast_S_S2x512x4x48x48 main_cst_2
  let main_v11 : IVec S2x512x4x48x48 1 := cmpf .olt main_v9 main_v10
  let main_c_3 : IVec S_ 1 := constantI S_ 1 1#1
  let main_v12 : IVec S_ 1 := (fun x v => Host.reduce IntOp.andi x v reducesTo_S2x512x4x48x48_S_d0_1_2_3_4 h_S_) main_v11 main_c_3
  let main_v13 : IVec S_ 1 := andi main_v8 main_v12
  main_v13
-- ==== Kernel.lean ====
abbrev S2x64x48x48 : Shape := ⟨4, ![2, 64, 48, 48]⟩
abbrev S2x64x4x48x48 : Shape := ⟨5, ![2, 64, 4, 48, 48]⟩
abbrev S2x512x4x48x48 : Shape := ⟨5, ![2, 512, 4, 48, 48]⟩
abbrev S2x64x2304 : Shape := ⟨3, ![2, 64, 2304]⟩
abbrev S2x64x9216 : Shape := ⟨3, ![2, 64, 9216]⟩
abbrev S2x512x9216 : Shape := ⟨3, ![2, 512, 9216]⟩
abbrev S2x512x2304 : Shape := ⟨3, ![2, 512, 2304]⟩
abbrev S1x64x2304 : Shape := ⟨3, ![1, 64, 2304]⟩
abbrev S1x64x1024 : Shape := ⟨3, ![1, 64, 1024]⟩
abbrev S1x512x1024 : Shape := ⟨3, ![1, 512, 1024]⟩
abbrev S1x512x2304 : Shape := ⟨3, ![1, 512, 2304]⟩
abbrev S1x2304 : Shape := ⟨2, ![1, 2304]⟩
abbrev S512x2304 : Shape := ⟨2, ![512, 2304]⟩
abbrev S64x2304 : Shape := ⟨2, ![64, 2304]⟩
abbrev S2304 : Shape := ⟨1, ![2304]⟩
abbrev S64x1024 : Shape := ⟨2, ![64, 1024]⟩
abbrev S1024 : Shape := ⟨1, ![1024]⟩
abbrev S1x1024 : Shape := ⟨2, ![1, 1024]⟩
abbrev S1024x2304 : Shape := ⟨2, ![1024, 2304]⟩
abbrev S512x1024 : Shape := ⟨2, ![512, 1024]⟩
abbrev S2x512x48x48 : Shape := ⟨4, ![2, 512, 48, 48]⟩

abbrev nBuf : Space → Nat
  | .hbm => 8
  | .vmem => 10
  | .smem => 0
  | _ => 0

abbrev bufTy : (tb : Table) → Fin (tcTables nBuf tb) → BufTy
  | .hbm, ⟨0, _⟩ => ⟨S2x64x48x48, .f32⟩
  | .hbm, ⟨1, _⟩ => ⟨S2x64x4x48x48, .f32⟩
  | .hbm, ⟨2, _⟩ => ⟨S2x512x4x48x48, .f32⟩
  | .hbm, ⟨3, _⟩ => ⟨S2x64x2304, .f32⟩
  | .hbm, ⟨4, _⟩ => ⟨S2x64x9216, .f32⟩
  | .hbm, ⟨5, _⟩ => ⟨S2x512x9216, .f32⟩
  | .hbm, ⟨6, _⟩ => ⟨S2x512x2304, .f32⟩
  | .hbm, ⟨7, _⟩ => ⟨S2x512x48x48, .f32⟩
  | .local _ .vmem, ⟨0, _⟩ => ⟨S1x64x2304, .f32⟩
  | .local _ .vmem, ⟨1, _⟩ => ⟨S1x64x2304, .f32⟩
  | .local _ .vmem, ⟨2, _⟩ => ⟨S1x64x1024, .f32⟩
  | .local _ .vmem, ⟨3, _⟩ => ⟨S1x64x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x2304, .f32⟩
  | .local _ .vmem, ⟨7, _⟩ => ⟨S1x512x2304, .f32⟩
  | .local _ .vmem, ⟨8, _⟩ => ⟨S1x2304, .f32⟩
  | .local _ .vmem, ⟨9, _⟩ => ⟨S512x2304, .f32⟩
  | _, _ => ⟨S2x64x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c8_i32 : BitVec 32 := 8#32
  let v42 : BitVec 1 := Scalar.cmpi .eq arg1 c8_i32
  let v43 : BitVec 32 := Scalar.extui v42
  let c0_i32_24 : BitVec 32 := 0#32
  let v44 : BitVec 1 := Scalar.cmpi .ne v43 c0_i32_24
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x64x48x48_S2x64x2304 : S2x64x48x48.ShapeCasts S2x64x2304
  shapeCasts_S2x64x4x48x48_S2x64x9216 : S2x64x4x48x48.ShapeCasts S2x64x9216
  shapeCasts_S2x512x4x48x48_S2x512x9216 : S2x512x4x48x48.ShapeCasts S2x512x9216
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  inb_S512x2304_S512x2304_0_0 : ∀ a, (![0, 0] : Fin 2 → Nat) a + S512x2304.size a ≤ S512x2304.size a
  h_S512x2304 : 0 < S512x2304.numel
  shapeCasts_S512x2304_S512x2304 : S512x2304.ShapeCasts S512x2304
  inb_S1x64x2304_S1x64x2304_0_0_0 : ∀ a, (![0, 0, 0] : Fin 3 → Nat) a + S1x64x2304.size a ≤ S1x64x2304.size a
  h_S1x64x2304 : 0 < S1x64x2304.numel
  shapeCasts_S1x64x2304_S64x2304 : S1x64x2304.ShapeCasts S64x2304
  reduces_S64x2304_S2304 : S64x2304.Reduces [0] S2304
  shapeCasts_S2304_S1x2304 : S2304.ShapeCasts S1x2304
  broadcasts_S1x2304_S64x2304 : S1x2304.Broadcasts S64x2304
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S64x1024_S1024 : S64x1024.Reduces [0] S1024
  shapeCasts_S1024_S1x1024 : S1024.ShapeCasts S1x1024
  broadcasts_S1x1024_S64x1024 : S1x1024.Broadcasts S64x1024
  reduces_S1024x2304_S2304 : S1024x2304.Reduces [0] S2304
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x2304_S512x2304 : S1x2304.Broadcasts S512x2304
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  shapeCasts_S512x2304_S1x512x2304 : S512x2304.ShapeCasts S1x512x2304
  shapeCasts_S2x512x2304_S2x512x48x48 : S2x512x2304.ShapeCasts S2x512x48x48
  dot_S64x1024_S64x2304_S1024x2304_0_0_1_1_n_n_wf : DotDims.WF S64x1024 S64x2304 S1024x2304 [0] [0] [1] [1] [] []
  dot_S512x1024_S1024x2304_S512x2304_1_0_0_1_n_n_wf : DotDims.WF S512x1024 S1024x2304 S512x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2304.size a ≤ S2x64x2304.size a
  hwx0_0 : ∀ i : grid0.Coords, EltTy.bits .f32 = 32 ∨ (Rect.block (s := S2x64x2304) S1x64x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S2x64x9216.size a
  hwx0_1 : ∀ i : grid0.Coords, EltTy.bits .f32 = 32 ∨ (Rect.block (s := S2x64x9216) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S2x512x9216.size a
  hwx0_2 : ∀ i : grid0.Coords, EltTy.bits .f32 = 32 ∨ (Rect.block (s := S2x512x9216) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2304.size a ≤ S2x512x2304.size a
  hwx0_3 : ∀ i : grid0.Coords, EltTy.bits .f32 = 32 ∨ (Rect.block (s := S2x512x2304) S1x512x2304.size (cc0_transform_3 i) (hinb0_3 i)).WholeWords (EltTy.packing .f32)

variable [Facts₀]

def dot_S64x1024_S64x2304_S1024x2304_0_0_1_1_n_n : DotDims S64x1024 S64x2304 S1024x2304 where
  lhsContracting := [0]
  rhsContracting := [0]
  lhsNonContracting := [1]
  rhsNonContracting := [1]
  lhsBatch := []
  rhsBatch := []
  wf := dot_S64x1024_S64x2304_S1024x2304_0_0_1_1_n_n_wf
def dot_S512x1024_S1024x2304_S512x2304_1_0_0_1_n_n : DotDims S512x1024 S1024x2304 S512x2304 where
  lhsContracting := [1]
  rhsContracting := [0]
  lhsNonContracting := [0]
  rhsNonContracting := [1]
  lhsBatch := []
  rhsBatch := []
  wf := dot_S512x1024_S1024x2304_S512x2304_1_0_0_1_n_n_wf

abbrev win0_0 : Pipeline.Window sig grid0 :=
  Pipeline.Window.ofSpec (Memref.whole main_v0) S1x64x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x64x48x48 : Shape := ⟨4, ![2, 64, 48, 48]⟩
abbrev S2x64x4x48x48 : Shape := ⟨5, ![2, 64, 4, 48, 48]⟩
abbrev S2x512x4x48x48 : Shape := ⟨5, ![2, 512, 4, 48, 48]⟩
abbrev S_ : Shape := ⟨0, ![]⟩
abbrev S2x48x48 : Shape := ⟨3, ![2, 48, 48]⟩
abbrev S2x1x48x48 : Shape := ⟨4, ![2, 1, 48, 48]⟩
abbrev S2x4x48x48 : Shape := ⟨4, ![2, 4, 48, 48]⟩
abbrev S2x1x4x48x48 : Shape := ⟨5, ![2, 1, 4, 48, 48]⟩
abbrev S2x64x2304 : Shape := ⟨3, ![2, 64, 2304]⟩
abbrev S2x64x9216 : Shape := ⟨3, ![2, 64, 9216]⟩
abbrev S2x512x9216 : Shape := ⟨3, ![2, 512, 9216]⟩
abbrev S2x9216x2304 : Shape := ⟨3, ![2, 9216, 2304]⟩
abbrev S2x2304 : Shape := ⟨2, ![2, 2304]⟩
abbrev S2x1x2304 : Shape := ⟨3, ![2, 1, 2304]⟩
abbrev S2x512x2304 : Shape := ⟨3, ![2, 512, 2304]⟩
abbrev S2x512x48x48 : Shape := ⟨4, ![2, 512, 48, 48]⟩

abbrev nBuf : Space → Nat
  | .hbm => 46
  | .vmem => 0
  | .smem => 0
  | _ => 0

abbrev bufTy : (tb : Table) → Fin (tcTables nBuf tb) → BufTy
  | .hbm, ⟨0, _⟩ => ⟨S2x64x48x48, .f32⟩
  | .hbm, ⟨1, _⟩ => ⟨S2x64x4x48x48, .f32⟩
  | .hbm, ⟨2, _⟩ => ⟨S2x512x4x48x48, .f32⟩
  | .hbm, ⟨3, _⟩ => ⟨S2x64x48x48, .f32⟩
  | .hbm, ⟨4, _⟩ => ⟨S_, .f32⟩
  | .hbm, ⟨5, _⟩ => ⟨S2x48x48, .f32⟩
  | .hbm, ⟨6, _⟩ => ⟨S2x1x48x48, .f32⟩
  | .hbm, ⟨7, _⟩ => ⟨S2x1x48x48, .f32⟩
  | .hbm, ⟨8, _⟩ => ⟨S_, .f32⟩
  | .hbm, ⟨9, _⟩ => ⟨S2x1x48x48, .f32⟩
  | .hbm, ⟨10, _⟩ => ⟨S2x1x48x48, .f32⟩
  | .hbm, ⟨11, _⟩ => ⟨S2x64x48x48, .f32⟩
  | .hbm, ⟨12, _⟩ => ⟨S2x64x48x48, .f32⟩
  | .hbm, ⟨13, _⟩ => ⟨S2x64x4x48x48, .f32⟩
  | .hbm, ⟨14, _⟩ => ⟨S_, .f32⟩
  | .hbm, ⟨15, _⟩ => ⟨S2x4x48x48, .f32⟩
  | .hbm, ⟨16, _⟩ => ⟨S2x1x4x48x48, .f32⟩
  | .hbm, ⟨17, _⟩ => ⟨S2x1x4x48x48, .f32⟩
  | .hbm, ⟨18, _⟩ => ⟨S_, .f32⟩
  | .hbm, ⟨19, _⟩ => ⟨S2x1x4x48x48, .f32⟩
  | .hbm, ⟨20, _⟩ => ⟨S2x1x4x48x48, .f32⟩
  | .hbm, ⟨21, _⟩ => ⟨S2x64x4x48x48, .f32⟩
  | .hbm, ⟨22, _⟩ => ⟨S2x64x4x48x48, .f32⟩
  | .hbm, ⟨23, _⟩ => ⟨S2x64x2304, .f32⟩
  | .hbm, ⟨24, _⟩ => ⟨S2x64x9216, .f32⟩
  | .hbm, ⟨25, _⟩ => ⟨S2x512x9216, .f32⟩
  | .hbm, ⟨26, _⟩ => ⟨S2x9216x2304, .f32⟩
  | .hbm, ⟨27, _⟩ => ⟨S_, .f32⟩
  | .hbm, ⟨28, _⟩ => ⟨S2x9216x2304, .f32⟩
  | .hbm, ⟨29, _⟩ => ⟨S2x9216x2304, .f32⟩
  | .hbm, ⟨30, _⟩ => ⟨S_, .f32⟩
  | .hbm, ⟨31, _⟩ => ⟨S2x2304, .f32⟩
  | .hbm, ⟨32, _⟩ => ⟨S_, .f32⟩
  | .hbm, ⟨33, _⟩ => ⟨S2x2304, .f32⟩
  | .hbm, ⟨34, _⟩ => ⟨S2x2304, .f32⟩
  | .hbm, ⟨35, _⟩ => ⟨S2x1x2304, .f32⟩
  | .hbm, ⟨36, _⟩ => ⟨S2x9216x2304, .f32⟩
  | .hbm, ⟨37, _⟩ => ⟨S2x9216x2304, .f32⟩
  | .hbm, ⟨38, _⟩ => ⟨S2x9216x2304, .f32⟩
  | .hbm, ⟨39, _⟩ => ⟨S_, .f32⟩
  | .hbm, ⟨40, _⟩ => ⟨S2x2304, .f32⟩
  | .hbm, ⟨41, _⟩ => ⟨S2x1x2304, .f32⟩
  | .hbm, ⟨42, _⟩ => ⟨S2x9216x2304, .f32⟩
  | .hbm, ⟨43, _⟩ => ⟨S2x9216x2304, .f32⟩
  | .hbm, ⟨44, _⟩ => ⟨S2x512x2304, .f32⟩
  | .hbm, ⟨45, _⟩ => ⟨S2x512x48x48, .f32⟩
  | _, _ => ⟨S2x64x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  reducesTo_S2x64x48x48_S2x48x48_d1 : S2x64x48x48.ReducesTo [1] S2x48x48
  h_S_ : 0 < S_.numel
  bcast_S2x48x48_S2x1x48x48_0_2_3 : S2x48x48.BroadcastsInDim S2x1x48x48 (![0, 2, 3] : Fin 3 → Fin S2x1x48x48.rank)
  bcast_S_S2x1x48x48 : S_.BroadcastsInDim S2x1x48x48 (![] : Fin 0 → Fin S2x1x48x48.rank)
  bcast_S2x1x48x48_S2x64x48x48_0_1_2_3 : S2x1x48x48.BroadcastsInDim S2x64x48x48 (![0, 1, 2, 3] : Fin 4 → Fin S2x64x48x48.rank)
  reducesTo_S2x64x4x48x48_S2x4x48x48_d1 : S2x64x4x48x48.ReducesTo [1] S2x4x48x48
  bcast_S2x4x48x48_S2x1x4x48x48_0_2_3_4 : S2x4x48x48.BroadcastsInDim S2x1x4x48x48 (![0, 2, 3, 4] : Fin 4 → Fin S2x1x4x48x48.rank)
  bcast_S_S2x1x4x48x48 : S_.BroadcastsInDim S2x1x4x48x48 (![] : Fin 0 → Fin S2x1x4x48x48.rank)
  bcast_S2x1x4x48x48_S2x64x4x48x48_0_1_2_3_4 : S2x1x4x48x48.BroadcastsInDim S2x64x4x48x48 (![0, 1, 2, 3, 4] : Fin 5 → Fin S2x64x4x48x48.rank)
  shapeCasts_S2x64x48x48_S2x64x2304 : S2x64x48x48.ShapeCasts S2x64x2304
  shapeCasts_S2x64x4x48x48_S2x64x9216 : S2x64x4x48x48.ShapeCasts S2x64x9216
  shapeCasts_S2x512x4x48x48_S2x512x9216 : S2x512x4x48x48.ShapeCasts S2x512x9216
  bcast_S_S2x9216x2304 : S_.BroadcastsInDim S2x9216x2304 (![] : Fin 0 → Fin S2x9216x2304.rank)
  reducesTo_S2x9216x2304_S2x2304_d1 : S2x9216x2304.ReducesTo [1] S2x2304
  bcast_S_S2x2304 : S_.BroadcastsInDim S2x2304 (![] : Fin 0 → Fin S2x2304.rank)
  bcast_S2x2304_S2x1x2304_0_2 : S2x2304.BroadcastsInDim S2x1x2304 (![0, 2] : Fin 2 → Fin S2x1x2304.rank)
  bcast_S2x1x2304_S2x9216x2304_0_1_2 : S2x1x2304.BroadcastsInDim S2x9216x2304 (![0, 1, 2] : Fin 3 → Fin S2x9216x2304.rank)
  shapeCasts_S2x512x2304_S2x512x48x48 : S2x512x2304.ShapeCasts S2x512x48x48
  dot_S2x64x9216_S2x64x2304_S2x9216x2304_1_1_2_2_0_0_wf : DotDims.WF S2x64x9216 S2x64x2304 S2x9216x2304 [1] [1] [2] [2] [0] [0]
  dot_S2x512x9216_S2x9216x2304_S2x512x2304_2_1_1_2_0_0_wf : DotDims.WF S2x512x9216 S2x9216x2304 S2x512x2304 [2] [1] [1] [2] [0] [0]

variable [Facts₀]

def dot_S2x64x9216_S2x64x2304_S2x9216x2304_1_1_2_2_0_0 : DotDims S2x64x9216 S2x64x2304 S2x9216x2304 where
  lhsContracting := [1]
  rhsContracting := [1]
  lhsNonContracting := [2]
  rhsNonContracting := [2]
  lhsBatch := [0]
  rhsBatch := [0]
  wf := dot_S2x64x9216_S2x64x2304_S2x9216x2304_1_1_2_2_0_0_wf
def dot_S2x512x9216_S2x9216x2304_S2x512x2304_2_1_1_2_0_0 : DotDims S2x512x9216 S2x9216x2304 S2x512x2304 where
  lhsContracting := [2]
  rhsContracting := [1]
  lhsNonContracting := [1]
  rhsNonContracting := [2]
  lhsBatch := [0]
  rhsBatch := [0]
  wf := dot_S2x512x9216_S2x9216x2304_S2x512x2304_2_1_1_2_0_0_wf

class Facts : Prop extends Facts₀ where

variable [Facts]
-- ==== Proof.KernelPieces.lean ====
/-
  What one grid point of the attention kernel leaves behind, as pure functions of what it read.

  A point (b, j) reads the query block q of batch b, the j-th key block k and value block v (1024 memory positions each),
  and carries two accumulators: the denominator l (one number per query) and the numerator acc (one row of 512 values
  per query).  With P = exp (40 · k̂ᵀ q̂) the block's unnormalised weights,
    l   ↦ l + Σ_m P[m, ·]        (weightsSum)
    acc ↦ acc + v · P            (valuesSum)
  where at the first block (j = 0) the accumulators are zeroed first, and at the last block (j = 8) the output block
  is acc / l taken AFTER the update.  Each statement below says that the contents the run found for one buffer in one of
  the three cases (first block / middle blocks / last block) is that function of the blocks read and of the
  accumulators as the previous point left them.
-/
import proofs.«155069_g31954556682489_cont_9to1_1970_25_alg».proof.Proof.Gen.KernelIdeal.Frame
import Idealize.ShloMosaic.Lib.Pipeline.Value
set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

theorem zero2 : (![0, 0] : Fin 2 → Nat) = fun _ => 0 := by funext a; fin_cases a <;> rfl
theorem zero3 : (![0, 0, 0] : Fin 3 → Nat) = fun _ => 0 := by funext a; fin_cases a <;> rfl

/-- The block's unnormalised weights exp (40 · k̂ᵀ q̂), from the query block and the key block. -/
abbrev weights (x0 : Vec F S1x64x2304 .f32) (x1 : Vec F S1x64x1024 .f32) : FVec F S1024x2304 .f32 := k0_pay5 x0 x1
/-- The denominator after the block: the one before plus the column sums of the weights. -/
abbrev weightsSum (x0 : Vec F S1x64x2304 .f32) (x1 : Vec F S1x64x1024 .f32) (l : Vec F S1x2304 .f32) : FVec F S1x2304 .f32 := k0_pay6 x0 x1 l
/-- The numerator after the block: the one before plus the value block times the weights. -/
abbrev valuesSum (x0 : Vec F S1x64x2304 .f32) (x1 : Vec F S1x64x1024 .f32) (x2 : Vec F S1x512x1024 .f32) (acc : Vec F S512x2304 .f32) : FVec F S512x2304 .f32 :=
  k0_pay1 (k0_pay5 x0 x1) x2 acc

/-- First block: the denominator starts from zero. -/
theorem den_first (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : cond0_0 i) (hc1 : ¬cond0_1 i) (x0 : Vec F S1x64x2304 .f32) (x1 : Vec F S1x64x1024 .f32) (x2 : Vec F S1x512x1024 .f32) :
    sout0_A_0 c i arg2 harg2 arg3 harg3 arg4 harg4 arg5 harg5 arg6 harg6 arg7 harg7 hc0 hc1 x0 x1 x2 = weightsSum x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero zero2]
  simp only [View.readAt_eq_ld, harg2.read_unread, harg3.read_unread, harg4.read_unread, harg6.read_unread, harg7.read_unread,
    View.ld_unit_zero (S := S1x64x2304) zero3, View.ld_unit_zero (S := S1x64x1024) zero3, View.ld_unit_zero (S := S1x512x1024) zero3,
    View.ld_unit_zero (S := S1x2304) zero2, View.ld_unit_zero (S := S512x2304) zero2,
    View.readCov_unit_zero (S := S1x2304) arg6.view zero2, View.readCov_unit_zero (S := S512x2304) arg7.view zero2]

/-- First block: the numerator starts from zero. -/
theorem num_first (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : cond0_0 i) (hc1 : ¬cond0_1 i) (x0 : Vec F S1x64x2304 .f32) (x1 : Vec F S1x64x1024 .f32) (x2 : Vec F S1x512x1024 .f32) :
    sout0_A_1 c i arg2 harg2 arg3 harg3 arg4 harg4 arg5 harg5 arg6 harg6 arg7 harg7 hc0 hc1 x0 x1 x2 = valuesSum x0 x1 x2 (k0_pay4 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero zero2]
  simp only [View.readAt_eq_ld, harg2.read_unread, harg3.read_unread, harg4.read_unread, harg6.read_unread, harg7.read_unread,
    View.ld_unit_zero (S := S1x64x2304) zero3, View.ld_unit_zero (S := S1x64x1024) zero3, View.ld_unit_zero (S := S1x512x1024) zero3,
    View.ld_unit_zero (S := S1x2304) zero2, View.ld_unit_zero (S := S512x2304) zero2,
    View.readCov_unit_zero (S := S1x2304) arg6.view zero2, View.readCov_unit_zero (S := S512x2304) arg7.view zero2]

/-- A middle block adds its weights to the carried denominator. -/
theorem den_middle (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : ¬cond0_1 i) (x0 : Vec F S1x64x2304 .f32) (x1 : Vec F S1x64x1024 .f32) (x2 : Vec F S1x512x1024 .f32) (xs0 : Vec F S1x2304 .f32) (xs1 : Vec F S512x2304 .f32) :
    sout0_B_0 c i arg2 harg2 arg3 harg3 arg4 harg4 arg5 harg5 arg6 harg6 arg7 harg7 hc0 hc1 x0 x1 x2 xs0 xs1 = weightsSum x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_cons_unit_zero zero2]
  simp only [View.readAt_eq_ld, harg2.read_unread, harg3.read_unread, harg4.read_unread, harg6.read_unread, harg7.read_unread,
    View.ld_unit_zero (S := S1x64x2304) zero3, View.ld_unit_zero (S := S1x64x1024) zero3, View.ld_unit_zero (S := S1x512x1024) zero3,
    View.ld_unit_zero (S := S1x2304) zero2, View.ld_unit_zero (S := S512x2304) zero2,
    View.readCov_unit_zero (S := S1x2304) arg6.view zero2, View.readCov_unit_zero (S := S512x2304) arg7.view zero2]

/-- A middle block adds its weighted values to the carried numerator. -/
theorem num_middle (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : ¬cond0_1 i) (x0 : Vec F S1x64x2304 .f32) (x1 : Vec F S1x64x1024 .f32) (x2 : Vec F S1x512x1024 .f32) (xs0 : Vec F S1x2304 .f32) (xs1 : Vec F S512x2304 .f32) :
    sout0_B_1 c i arg2 harg2 arg3 harg3 arg4 harg4 arg5 harg5 arg6 harg6 arg7 harg7 hc0 hc1 x0 x1 x2 xs0 xs1 = valuesSum x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_cons_unit_zero zero2]
  simp only [View.readAt_eq_ld, harg2.read_unread, harg3.read_unread, harg4.read_unread, harg6.read_unread, harg7.read_unread,
    View.ld_unit_zero (S := S1x64x2304) zero3, View.ld_unit_zero (S := S1x64x1024) zero3, View.ld_unit_zero (S := S1x512x1024) zero3,
    View.ld_unit_zero (S := S1x2304) zero2, View.ld_unit_zero (S := S512x2304) zero2,
    View.readCov_unit_zero (S := S1x2304) arg6.view zero2, View.readCov_unit_zero (S := S512x2304) arg7.view zero2]

/-- The last block adds its weights to the carried denominator. -/
theorem den_last (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : cond0_1 i) (x0 : Vec F S1x64x2304 .f32) (x1 : Vec F S1x64x1024 .f32) (x2 : Vec F S1x512x1024 .f32) (xs0 : Vec F S1x2304 .f32) (xs1 : Vec F S512x2304 .f32) :
    sout0_C_0 c i arg2 harg2 arg3 harg3 arg4 harg4 arg5 harg5 arg6 harg6 arg7 harg7 hc0 hc1 x0 x1 x2 xs0 xs1 = weightsSum x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_cons_unit_zero zero2]
  simp only [View.readAt_eq_ld, harg2.read_unread, harg3.read_unread, harg4.read_unread, harg6.read_unread, harg7.read_unread,
    View.ld_unit_zero (S := S1x64x2304) zero3, View.ld_unit_zero (S := S1x64x1024) zero3, View.ld_unit_zero (S := S1x512x1024) zero3,
    View.ld_unit_zero (S := S1x2304) zero2, View.ld_unit_zero (S := S512x2304) zero2,
    View.readCov_unit_zero (S := S1x2304) arg6.view zero2, View.readCov_unit_zero (S := S512x2304) arg7.view zero2]

/-- The last block adds its weighted values to the carried numerator. -/
theorem num_last (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : cond0_1 i) (x0 : Vec F S1x64x2304 .f32) (x1 : Vec F S1x64x1024 .f32) (x2 : Vec F S1x512x1024 .f32) (xs0 : Vec F S1x2304 .f32) (xs1 : Vec F S512x2304 .f32) :
    sout0_C_1 c i arg2 harg2 arg3 harg3 arg4 harg4 arg5 harg5 arg6 harg6 arg7 harg7 hc0 hc1 x0 x1 x2 xs0 xs1 = valuesSum x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_cons_unit_zero zero2]
  simp only [View.readAt_eq_ld, harg2.read_unread, harg3.read_unread, harg4.read_unread, harg6.read_unread, harg7.read_unread,
    View.ld_unit_zero (S := S1x64x2304) zero3, View.ld_unit_zero (S := S1x64x1024) zero3, View.ld_unit_zero (S := S1x512x1024) zero3,
    View.ld_unit_zero (S := S1x2304) zero2, View.ld_unit_zero (S := S512x2304) zero2,
    View.readCov_unit_zero (S := S1x2304) arg6.view zero2, View.readCov_unit_zero (S := S512x2304) arg7.view zero2]

/-- The last block writes the quotient of the two accumulators as just updated. -/
theorem out_last (c : Dev nD) (i : grid0.Coords) (arg2 : Memref sig .tc .vmem S1x64x2304 .f32) (harg2 : arg2.IsWhole) (arg3 : Memref sig .tc .vmem S1x64x1024 .f32) (harg3 : arg3.IsWhole) (arg4 : Memref sig .tc .vmem S1x512x1024 .f32) (harg4 : arg4.IsWhole) (arg5 : Memref sig .tc .vmem S1x512x2304 .f32) (harg5 : arg5.IsWhole) (arg6 : Memref sig .tc .vmem S1x2304 .f32) (harg6 : arg6.IsWhole) (arg7 : Memref sig .tc .vmem S512x2304 .f32) (harg7 : arg7.IsWhole) (hc0 : ¬cond0_0 i) (hc1 : cond0_1 i) (x0 : Vec F S1x64x2304 .f32) (x1 : Vec F S1x64x1024 .f32) (x2 : Vec F S1x512x1024 .f32) (xs0 : Vec F S1x2304 .f32) (xs1 : Vec F S512x2304 .f32) :
    out0_C_3 c i arg2 harg2 arg3 harg3 arg4 harg4 arg5 harg5 arg6 harg6 arg7 harg7 hc0 hc1 x0 x1 x2 xs0 xs1 = k0_pay2 (valuesSum x0 x1 x2 xs1) (weightsSum x0 x1 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_cons_unit_zero zero3]
  simp only [View.readAt_eq_ld, harg2.read_unread, harg3.read_unread, harg4.read_unread, harg6.read_unread, harg7.read_unread,
    View.ld_unit_zero (S := S1x64x2304) zero3, View.ld_unit_zero (S := S1x64x1024) zero3, View.ld_unit_zero (S := S1x512x1024) zero3,
    View.ld_unit_zero (S := S1x2304) zero2, View.ld_unit_zero (S := S512x2304) zero2,
    View.readCov_unit_zero (S := S1x2304) arg6.view zero2, View.readCov_unit_zero (S := S512x2304) arg7.view zero2]

end Cert.KernelIdeal.Pieces

end
-- ==== Proof.AttnSpec.lean ====
/-
  Attention with L2-normalised keys, as a function on the extended reals.

  For one batch entry: a query column `q : D → EReal` and the key columns `k m : D → EReal` (D = 64 channels) are
  each scaled to unit Euclidean length, the score of memory position `m` against the query is
  `40 · ∑ d, k̂ m d · q̂ d`, and the read-out of a value row `v : M → EReal` is the softmax-weighted mean
  `∑ m, v m · softmax(score) m`.

  Two spellings of each step occur.  A column is normalised either by dividing by its clamped norm,
  `x / max (√(∑ x²)) ε`, or by multiplying with the reciprocal square root of its clamped squared norm,
  `x · rsqrt (max (∑ x²) ε²)`; the two clamps are related by `ε² = ε · ε`.  The read-out is taken either with the
  weights normalised first, each exponent shifted by a number `c` (the running maximum), or with one division at the
  end and no shift.  On real arguments the spellings agree (AttnLaws.lean); here they are only named.
-/
import Idealize.ShloMosaic.PureOps.Ideal
import Idealize.ShloMosaic.Lib.ValueIdx

noncomputable section

namespace Cert.Attn

open Idealize.ShloMosaic Idealize.ShloMosaic.ValueIdx

variable {D M : Type} [Fintype D] [Fintype M]

/-- The clamp on a column's norm: the single-precision number nearest to 1e-12, exactly `9223372 / 2^63`. -/
def epsNorm : EReal := Ideal.ofBits .f32 0x2B8CBCCC#32

/-- The clamp on a column's squared norm: the square of `epsNorm`, exactly `5316911940649 / 2^122`. -/
def epsSq : EReal := ((5316911940649 / 5316911983139663491615228241121378304 : ℝ) : EReal)

/-- The score scale, 40. -/
def scale : EReal := Ideal.ofBits .f32 0x42200000#32

/-- The squared Euclidean length of a column. -/
def sumSq (x : D → EReal) : EReal := ∑ k, x k * x k

/-- A column divided by its clamped length. -/
def unitByNorm (x : D → EReal) (d : D) : EReal := Ideal.div (x d) (max (Ideal.sqrt (sumSq x)) epsNorm)

/-- A column times the reciprocal square root of its clamped squared length. -/
def unitByRsqrt (x : D → EReal) (d : D) : EReal := x d * Ideal.rsqrt (max (sumSq x) epsSq)

/-- The scaled inner product of a key column and a query column. -/
def score (k q : D → EReal) : EReal := scale * ∑ d, k d * q d

/-- The read-out with the softmax weights formed first, every exponent shifted by `c`. -/
def readShifted (v s : M → EReal) (c : EReal) : EReal :=
  ∑ m, v m * Ideal.div (Ideal.exp (s m - c)) (∑ m', Ideal.exp (s m' - c))

/-- The read-out with the unnormalised weights summed and one division at the end. -/
def readPlain (v s : M → EReal) : EReal :=
  Ideal.div (∑ m, v m * Ideal.exp (s m)) (∑ m, Ideal.exp (s m))

/-! ## The arrays: queries [2, 64, 2304], keys [2, 64, 9216], values [2, 512, 9216], result [2, 512, 2304] -/

abbrev SQ : Shape := ⟨3, ![2, 64, 2304]⟩
abbrev SK : Shape := ⟨3, ![2, 64, 9216]⟩
abbrev SV : Shape := ⟨3, ![2, 512, 9216]⟩
abbrev SO : Shape := ⟨3, ![2, 512, 2304]⟩

/-- Query column `q` of batch entry `b`. -/
def qcol (Q : SQ.Idx → EReal) (b : Fin 2) (q : Fin 2304) : Fin 64 → EReal := fun d => Q (ix3 b d q)
/-- Key column `m` of batch entry `b`. -/
def kcol (K : SK.Idx → EReal) (b : Fin 2) (m : Fin 9216) : Fin 64 → EReal := fun d => K (ix3 b d m)
/-- Value row `v` of batch entry `b`. -/
def vrow (V : SV.Idx → EReal) (b : Fin 2) (v : Fin 512) : Fin 9216 → EReal := fun m => V (ix3 b v m)

/-- Scores of every memory position against query `q` of batch `b`, columns normalised by rsqrt. -/
def scoresRsqrt (Q : SQ.Idx → EReal) (K : SK.Idx → EReal) (b : Fin 2) (q : Fin 2304) : Fin 9216 → EReal :=
  fun m => score (unitByRsqrt (kcol K b m)) (unitByRsqrt (qcol Q b q))

/-- The same with columns normalised by their norm. -/
def scoresNorm (Q : SQ.Idx → EReal) (K : SK.Idx → EReal) (b : Fin 2) (q : Fin 2304) : Fin 9216 → EReal :=
  fun m => score (unitByNorm (kcol K b m)) (unitByNorm (qcol Q b q))

/-- Entry (b, v, q) of the result: rsqrt normalisation, one division at the end. -/
def attnPlain (Q : SQ.Idx → EReal) (K : SK.Idx → EReal) (V : SV.Idx → EReal) : SO.Idx → EReal :=
  fun i => readPlain (vrow V (i 0) (i 1)) (scoresRsqrt Q K (i 0) (i 2))

/-- Entry (b, v, q) of the result: norm normalisation, softmax weights shifted by `c b q`. -/
def attnShifted (Q : SQ.Idx → EReal) (K : SK.Idx → EReal) (V : SV.Idx → EReal) (c : Fin 2 → Fin 2304 → EReal) :
    SO.Idx → EReal :=
  fun i => readShifted (vrow V (i 0) (i 1)) (scoresNorm Q K (i 0) (i 2)) (c (i 0) (i 2))

end Cert.Attn

end
-- ==== Proof.LibDotAxis0.lean ====
/-
  A matrix product that contracts the FIRST axis of both operands, read at one entry.

  For `x : K × M` and `y : K × N` the product with dimension numbers "contract axis 0 of the left with axis 0 of the right, keep
  axis 1 of each" is the `M × N` array of inner products of COLUMNS: entry `(p, q)` is `∑ k, x[k, p] · y[k, q]` (the transpose of
  the left operand times the right). Over the extended reals, accumulated into the zero array, that is the whole statement
  (`matmul_axis0_apply`); the work is only to identify the product's own operand indices — computed from the dimension numbers —
  with the coordinate pairs `(k, p)` and `(k, q)`, and its one-axis contraction index with the coordinate `k`.
-/
import Idealize.ShloMosaic.PureOps.Ideal.Laws
import Idealize.ShloMosaic.Lib.ValueIdx

noncomputable section

open scoped BigOperators

namespace Cert.Lib.DotAxis0

open Idealize.ShloMosaic Idealize.ShloMosaic.ValueIdx

/-- The dimension numbers: `K×M` by `K×N`, each contracted on its first axis, the result `M×N`. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand's kept axis 1 follows the output's axis 0, whatever the contraction index. -/
theorem lhs_axis1 (i : (⟨2, ![M, N]⟩ : Shape).Idx) (c : (dims K M N).contr.Idx) :
    ((dims K M N).lhsIdx i c 1).val = (i 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_cons_self)]
  rfl

/-- The right operand's kept axis 1 follows the output's axis 1. -/
theorem rhs_axis1 (i : (⟨2, ![M, N]⟩ : Shape).Idx) (c : (dims K M N).contr.Idx) :
    ((dims K M N).rhsIdx i c 1).val = (i 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_cons_self)]
  rfl

/-- Each operand's contracted axis 0 follows the contraction index's one coordinate. -/
theorem lhs_axis0 (i : (⟨2, ![M, N]⟩ : Shape).Idx) (c : (dims K M N).contr.Idx) :
    ((dims K M N).lhsIdx i c 0).val = (c ⟨0, Nat.zero_lt_one⟩).val :=
  (dims K M N).lhsIdx_val_of_single rfl i c
theorem rhs_axis0 (i : (⟨2, ![M, N]⟩ : Shape).Idx) (c : (dims K M N).contr.Idx) :
    ((dims K M N).rhsIdx i c 0).val = (c ⟨0, Nat.zero_lt_one⟩).val :=
  (dims K M N).rhsIdx_val_of_single rfl i c

/-- So at output entry `(p, q)` and contraction coordinate `k` the left operand is read at `(k, p)` … -/
theorem lhsIdx_axis0 (p : Fin M) (q : Fin N) (k : Fin K) :
    (dims K M N).lhsIdx (ix2 p q) ((contrEquiv1 (dims K M N) K rfl rfl).symm k) = ix2 k p :=
  funext fun a => Fin.ext (by
    match a with
    | ⟨0, _⟩ => exact (lhs_axis0 _ _).trans (contrEquiv1_symm_val (dims K M N) K rfl rfl k)
    | ⟨1, _⟩ => exact lhs_axis1 _ _)

/-- … and the right operand at `(k, q)`. -/
theorem rhsIdx_axis0 (p : Fin M) (q : Fin N) (k : Fin K) :
    (dims K M N).rhsIdx (ix2 p q) ((contrEquiv1 (dims K M N) K rfl rfl).symm k) = ix2 k q :=
  funext fun a => Fin.ext (by
    match a with
    | ⟨0, _⟩ => exact (rhs_axis0 _ _).trans (contrEquiv1_symm_val (dims K M N) K rfl rfl k)
    | ⟨1, _⟩ => exact rhs_axis1 _ _)

/-- THE PRODUCT OF COLUMNS AT AN ENTRY. Over the extended reals, a matrix product with these dimension numbers (any record `D`
    that spells them: `hD`), accumulated into the zero array, holds at `(p, q)` the inner product of column `p` of the left
    operand and column `q` of the right: `∑ k, x[k, p] · y[k, q]`. -/
theorem matmul_axis0_apply {φ₁ φ₂ : FTy} (D : DotDims ⟨2, ![K, M]⟩ ⟨2, ![K, N]⟩ ⟨2, ![M, N]⟩) (hD : D = dims K M N)
    (prec : Option ContractPrecision) (x : FVec Ideal ⟨2, ![K, M]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 k p) * y (ix2 k q) := by
  subst hD
  rw [Ideal.matmul_constant_zero_apply, ← Equiv.sum_comp (contrEquiv1 (dims K M N) K rfl rfl).symm]
  refine Finset.sum_congr rfl fun k _ => ?_
  rw [lhsIdx_axis0, rhsIdx_axis0]

end Cert.Lib.DotAxis0

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelPayloads.lean ====
/-
  The attention kernel's arithmetic for one grid point, entry by entry, on the extended reals.

  With q the query block [1, 64, 2304], k the key block [1, 64, 1024] and v the value block [1, 512, 1024] of the point:
    weights[m, j]      = exp (40 · Σ_d k̂[d, m] · q̂[d, j])          (k̂, q̂ the columns scaled by rsqrt of their clamped squared length)
    weightsSum l [0,j] = l[0, j] + Σ_m weights[m, j]
    valuesSum acc[i,j] = acc[i, j] + Σ_m v[0, i, m] · weights[m, j]
    quotient a l [0,i,j] = a[i, j] / l[0, j]
  and the accumulators start at 0.  Every step is a layout operation read at an index (a unit axis added or dropped, one row
  repeated), a sum over the 64 channels or the 1024 memory positions of the block, or a pointwise operation.
-/
import proofs.«155069_g31954556682489_cont_9to1_1970_25_alg».proof.Proof.KernelPieces
import proofs.«155069_g31954556682489_cont_9to1_1970_25_alg».proof.Proof.AttnSpec
import proofs.«155069_g31954556682489_cont_9to1_1970_25_alg».proof.Proof.LibDotAxis0
import proofs.«155069_g31954556682489_cont_9to1_1970_25_alg».proof.Proof.LibDotCols
import Idealize.ShloMosaic.Lib.ValueLayout
import Idealize.ShloMosaic.PureOps.Ideal.Laws
import Idealize.ShloMosaic.PureOps.IdealRules

noncomputable section

namespace Cert.KernelIdeal.Payloads

open Idealize.ShloMosaic Idealize.ShloMosaic.ValueIdx Idealize.ShloMosaic.TcCoe
open Cert.KernelIdeal Cert.KernelIdeal.Gen Cert.KernelIdeal.Pieces Cert.Attn

/-- Reducing a matrix over its rows: the column index `t` with row `k` put back is the entry (k, t). -/
theorem lift_rows {a n : Nat} (h : (⟨2, ![a, n]⟩ : Shape).Reduces [0] (⟨1, ![n]⟩ : Shape)) (t : Fin n)
    (k : Fin ((⟨2, ![a, n]⟩ : Shape).size 0)) : h.lift (ix1 t) k = ix2 (⟨k.val, k.isLt⟩ : Fin a) t := by
  funext c; apply Fin.ext
  fin_cases c <;> rfl

/-- A sum over the rows of an [a, n] matrix, at column `t`. -/
theorem colSum_apply {a n : Nat} (x : FVec Ideal ⟨2, ![a, n]⟩ .f32) (h : (⟨2, ![a, n]⟩ : Shape).Reduces [0] (⟨1, ![n]⟩ : Shape))
    (hφ : FKind.Formats .f32) (hacc : (0x00000000#32 : BitVec 32) = FKind.add.neutral .f32 hφ) (t : Fin n) :
    multiReduction .add [0] (⟨1, ![n]⟩ : Shape) x 0x00000000#32 h hφ hacc (ix1 t) = ∑ k : Fin a, x (ix2 k t) := by
  rw [Ideal.multiReduction_add_single]
  exact Finset.sum_congr rfl fun k _ => congrArg x (lift_rows h t k)

/-- The named clamp is the square of the norm clamp. -/
theorem clamp_eq : Named.named (F := Ideal) Cert.KernelIdeal.κ "eps_sq" (φ := .f32) 0x179ABE15#32 = epsSq :=
  IdealRules.named_const.ideal_named_scalar _ _ _ _ rfl

/-- Columns of a [1, 64, n] block scaled by the reciprocal root of their clamped squared length, at (d, t). -/
theorem unitCols_apply {n : Nat} (X : FVec Ideal ⟨3, ![1, 64, n]⟩ .f32)
    (h1 : (⟨3, ![1, 64, n]⟩ : Shape).ShapeCasts ⟨2, ![64, n]⟩) (hr : (⟨2, ![64, n]⟩ : Shape).Reduces [0] (⟨1, ![n]⟩ : Shape))
    (hφ : FKind.Formats .f32) (hacc : (0x00000000#32 : BitVec 32) = FKind.add.neutral .f32 hφ)
    (h2 : (⟨1, ![n]⟩ : Shape).ShapeCasts ⟨2, ![1, n]⟩) (hb : (⟨2, ![1, n]⟩ : Shape).Broadcasts ⟨2, ![64, n]⟩) (d : Fin 64) (t : Fin n) :
    mulf (shapeCast ⟨2, ![64, n]⟩ X h1)
        (broadcastTo ⟨2, ![64, n]⟩
          (rsqrt (maximumf
            (shapeCast ⟨2, ![1, n]⟩ (multiReduction .add [0] (⟨1, ![n]⟩ : Shape)
              (mulf (shapeCast ⟨2, ![64, n]⟩ X h1) (shapeCast ⟨2, ![64, n]⟩ X h1)) 0x00000000#32 hr hφ hacc) h2)
            (broadcast ⟨2, ![1, n]⟩ (Named.named (F := Ideal) Cert.KernelIdeal.κ "eps_sq" (φ := .f32) 0x179ABE15#32)))) hb) (ix2 d t)
      = unitByRsqrt (fun k : Fin 64 => X (ix3 (0 : Fin 1) k t)) d := by
  rw [mulf_apply, shapeCast_1ab_ab_apply, broadcastTo_1b_ab_apply]
  show X (ix3 0 d t) * Ideal.rsqrt (max (shapeCast ⟨2, ![1, n]⟩ _ h2 (ix2 (0 : Fin 1) t)) (Named.named (F := Ideal) Cert.KernelIdeal.κ "eps_sq" (φ := .f32) 0x179ABE15#32)) = _
  rw [shapeCast_a_1a_apply, colSum_apply, clamp_eq]
  simp only [mulf_apply, shapeCast_1ab_ab_apply]
  rfl

variable (x0 : Vec Ideal S1x64x2304 .f32) (x1 : Vec Ideal S1x64x1024 .f32) (x2 : Vec Ideal S1x512x1024 .f32)

/-- Query column `j` of the block. -/
def qc (j : Fin 2304) : Fin 64 → EReal := fun d => x0 (ix3 (0 : Fin 1) d j)
/-- Key column `m` of the block. -/
def kc (m : Fin 1024) : Fin 64 → EReal := fun d => x1 (ix3 (0 : Fin 1) d m)

/-- The block's weight of memory position `m` for query `j`. -/
theorem weights_apply (m : Fin 1024) (j : Fin 2304) :
    weights x0 x1 (ix2 m j) = Ideal.exp (score (unitByRsqrt (kc x1 m)) (unitByRsqrt (qc x0 j))) := by
  unfold weights k0_pay5
  dsimp only
  refine congrArg Ideal.exp (congrArg (Ideal.ofBits .f32 0x42200000#32 * ·) ?_)
  refine (Cert.Lib.DotAxis0.matmul_axis0_apply _ rfl _ _ _ m j).trans (Finset.sum_congr rfl fun d _ => ?_)
  exact congrArg₂ (· * ·) (unitCols_apply x1 _ _ _ _ _ _ d m) (unitCols_apply x0 _ _ _ _ _ _ d j)

/-- The denominator after the block, at query `j`. -/
theorem weightsSum_apply (l : Vec Ideal S1x2304 .f32) (u : Fin 1) (j : Fin 2304) :
    weightsSum x0 x1 l (ix2 u j) = l (ix2 u j) + ∑ m : Fin 1024, weights x0 x1 (ix2 m j) := by
  unfold weightsSum k0_pay6
  dsimp only
  rw [shapeCast_self, addf_apply, shapeCast_a_1a_apply]
  exact congrArg (l (ix2 u j) + ·) (colSum_apply (a := 1024) (n := 2304) _ _ _ _ j)

/-- The numerator after the block, at value row `i` and query `j`. -/
theorem valuesSum_apply (acc : Vec Ideal S512x2304 .f32) (i : Fin 512) (j : Fin 2304) :
    valuesSum x0 x1 x2 acc (ix2 i j) = acc (ix2 i j) + ∑ m : Fin 1024, x2 (ix3 (0 : Fin 1) i m) * weights x0 x1 (ix2 m j) := by
  unfold valuesSum k0_pay1
  try dsimp only
  rw [shapeCast_self, addf_apply]
  refine congrArg (acc (ix2 i j) + ·) ?_
  refine (Cert.Lib.DotCols.matmul_cols_apply _ rfl _ _ _ i j).trans (Finset.sum_congr rfl fun m _ => ?_)
  rw [shapeCast_1ab_ab_apply]

/-- The output block: numerator over denominator. -/
theorem quotient_apply (a : Vec Ideal S512x2304 .f32) (l : Vec Ideal S1x2304 .f32) (u : Fin 1) (i : Fin 512) (j : Fin 2304) :
    k0_pay2 a l (ix3 u i j) = Ideal.div (a (ix2 i j)) (l (ix2 (0 : Fin 1) j)) := by
  unfold k0_pay2
  try dsimp only
  rw [shapeCast_ab_1ab_apply, divf_apply, broadcastTo_1b_ab_apply]

/-- The denominator starts at zero. -/
theorem den_zero_apply (i : S1x2304.Idx) : k0_pay3 (F := Ideal) i = 0 := by
  unfold k0_pay3
  try dsimp only
  rw [shapeCast_self, broadcast_apply]
  exact Ideal.ofBits_zero_f32

/-- The numerator starts at zero. -/
theorem num_zero_apply (i : S512x2304.Idx) : k0_pay4 (F := Ideal) i = 0 := by
  unfold k0_pay4
  try dsimp only
  rw [shapeCast_self, broadcast_apply]
  exact Ideal.ofBits_zero_f32

end Cert.KernelIdeal.Payloads

end
-- ==== Proof.KernelBlocks.lean ====
/-
  Which entries of the whole arrays a grid point sees.

  The grid is 2 × 9: point t is batch entry b = t / 9 and memory block j = t % 9.  Its query block is all of batch b's
  queries, its key and value blocks are memory positions 1024·j … 1024·j + 1023 of batch b, and its output block is all
  of batch b's result.  So an entry of a block is the entry of the array at the same channel (or value row), batch b,
  and position 1024·j + (position inside the block).
-/
import proofs.«155069_g31954556682489_cont_9to1_1970_25_alg».proof.Proof.KernelPayloads

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen

variable {F : FTy → Type} [FloatOps F] [Named F]
variable (m : (ℓ : Loc nD τ sig) → Buf (Elt F) ℓ)

/-- The four windows' block indices at point t: (t / 9, 0, 0) for the queries and the result, (t / 9, 0, t % 9) for keys and values. -/
theorem index_maps : ∀ t : Fin cfg0.N,
    win0_0.index t (0 : Fin 3) = t.val / 9 ∧ win0_0.index t (1 : Fin 3) = 0 ∧ win0_0.index t (2 : Fin 3) = 0
  ∧ win0_1.index t (0 : Fin 3) = t.val / 9 ∧ win0_1.index t (1 : Fin 3) = 0 ∧ win0_1.index t (2 : Fin 3) = t.val % 9
  ∧ win0_2.index t (0 : Fin 3) = t.val / 9 ∧ win0_2.index t (1 : Fin 3) = 0 ∧ win0_2.index t (2 : Fin 3) = t.val % 9
  ∧ win0_3.index t (0 : Fin 3) = t.val / 9 ∧ win0_3.index t (1 : Fin 3) = 0 ∧ win0_3.index t (2 : Fin 3) = 0 :=
  (by decide +kernel : ∀ t : Fin grid0.N, _)

theorem points : cfg0.N = 18 := N_0

/-- The batch entry of a point. -/
def batch (t : Fin cfg0.N) : Fin 2 := ⟨t.val / 9, by have := lt_of_lt_of_eq t.isLt points; omega⟩

/-- Memory position k of block j (j < 9, k < 1024) among the 9216 positions. -/
def memPos (j : ℕ) (hj : j < 9) (k : Fin 1024) : Fin 9216 := ⟨1024 * j + k.val, by have := k.isLt; omega⟩

theorem block_lt (t : Fin cfg0.N) : t.val % 9 < 9 := Nat.mod_lt _ (by decide)

/-- An entry of the query block. -/
theorem query_block (c : Dev nD) (t : Fin cfg0.N) (d : Fin 64) (q : Fin 2304) :
    iblk m c 0 t (ix3 (0 : Fin 1) d q) = V m c main_v0 (ix3 (batch t) d q) := by
  obtain ⟨e0, e1, e2, -⟩ := index_maps t
  show V m c main_v0 (((cfg0.win 0).blk t).view.emb (ix3 (0 : Fin 1) d q)) = _
  refine congrArg _ (funext fun a => Fin.ext ?_)
  match a with
  | ⟨0, _⟩ => show win0_0.index t (0 : Fin 3) * 1 + 1 * 0 = t.val / 9; omega
  | ⟨1, _⟩ => show win0_0.index t (1 : Fin 3) * 64 + 1 * d.val = d.val; omega
  | ⟨2, _⟩ => show win0_0.index t (2 : Fin 3) * 2304 + 1 * q.val = q.val; omega

/-- An entry of the key block. -/
theorem key_block (c : Dev nD) (t : Fin cfg0.N) (d : Fin 64) (k : Fin 1024) :
    iblk m c 1 t (ix3 (0 : Fin 1) d k) = V m c main_v1 (ix3 (batch t) d (memPos (t.val % 9) (block_lt t) k)) := by
  obtain ⟨-, -, -, e0, e1, e2, -⟩ := index_maps t
  show V m c main_v1 (((cfg0.win 1).blk t).view.emb (ix3 (0 : Fin 1) d k)) = _
  refine congrArg _ (funext fun a => Fin.ext ?_)
  match a with
  | ⟨0, _⟩ => show win0_1.index t (0 : Fin 3) * 1 + 1 * 0 = t.val / 9; omega
  | ⟨1, _⟩ => show win0_1.index t (1 : Fin 3) * 64 + 1 * d.val = d.val; omega
  | ⟨2, _⟩ => show win0_1.index t (2 : Fin 3) * 1024 + 1 * k.val = 1024 * (t.val % 9) + k.val; omega

/-- An entry of the value block. -/
theorem value_block (c : Dev nD) (t : Fin cfg0.N) (i : Fin 512) (k : Fin 1024) :
    iblk m c 2 t (ix3 (0 : Fin 1) i k) = V m c main_v2 (ix3 (batch t) i (memPos (t.val % 9) (block_lt t) k)) := by
  obtain ⟨-, -, -, -, -, -, e0, e1, e2, -⟩ := index_maps t
  show V m c main_v2 (((cfg0.win 2).blk t).view.emb (ix3 (0 : Fin 1) i k)) = _
  refine congrArg _ (funext fun a => Fin.ext ?_)
  match a with
  | ⟨0, _⟩ => show win0_2.index t (0 : Fin 3) * 1 + 1 * 0 = t.val / 9; omega
  | ⟨1, _⟩ => show win0_2.index t (1 : Fin 3) * 512 + 1 * i.val = i.val; omega
  | ⟨2, _⟩ => show win0_2.index t (2 : Fin 3) * 1024 + 1 * k.val = 1024 * (t.val % 9) + k.val; omega

/-- Where an entry of the output block lands in the result array. -/
theorem result_block (t : Fin cfg0.N) (u : Fin 1) (i : Fin 512) (q : Fin 2304) :
    ((cfg0.win 3).blk t).view.emb (ix3 u i q) = ix3 (batch t) i q := by
  obtain ⟨-, -, -, -, -, -, -, -, -, e0, e1, e2⟩ := index_maps t
  refine funext fun a => Fin.ext ?_
  have hu : u.val = 0 := by omega
  match a with
  | ⟨0, _⟩ => show win0_3.index t (0 : Fin 3) * 1 + 1 * u.val = t.val / 9; omega
  | ⟨1, _⟩ => show win0_3.index t (1 : Fin 3) * 512 + 1 * i.val = i.val; omega
  | ⟨2, _⟩ => show win0_3.index t (2 : Fin 3) * 2304 + 1 * q.val = q.val; omega

end Cert.KernelIdeal.Blocks

end
-- ==== Proof.KernelAccum.lean ====
/-
  What the two accumulators hold after each grid point.

  Fix a batch entry b and a query q, and write w n = exp (score of memory position n against q) for n < 9216.  Point
  t = 9·b + j adds the weights of positions 1024·j … 1024·j + 1023 to the denominator (starting from zero at j = 0), and
  the corresponding weighted values to the numerator.  So after point t the denominator is Σ_{n < 1024·(j+1)} w n and the
  numerator Σ_{n < 1024·(j+1)} v n · w n: after the last block, the sums over all 9216 positions, and the block written
  there is their quotient.
-/
import proofs.«155069_g31954556682489_cont_9to1_1970_25_alg».proof.Proof.KernelBlocks

set_option maxRecDepth 16384

noncomputable section

namespace Cert.KernelIdeal.Accum

open Idealize.ShloMosaic Idealize.ShloMosaic.ValueIdx Idealize.ShloMosaic.TcCoe Idealize.SL.Sem
open Cert.KernelIdeal Cert.KernelIdeal.Gen Cert.KernelIdeal.Pieces Cert.KernelIdeal.Payloads Cert.KernelIdeal.Blocks Cert.Attn

/-! ## One block, for any arrays and any blocks that are their restrictions -/

section OneBlock

variable (Q : SQ.Idx → EReal) (K : SK.Idx → EReal) (Vv : SV.Idx → EReal)

/-- The weight of memory position n for query q of batch b (zero past the last position). -/
def wAt (b : Fin 2) (q : Fin 2304) (n : ℕ) : EReal :=
  if h : n < 9216 then Ideal.exp (scoresRsqrt Q K b q ⟨n, h⟩) else 0

/-- The weighted value of row i at memory position n. -/
def vwAt (b : Fin 2) (i : Fin 512) (q : Fin 2304) (n : ℕ) : EReal :=
  if h : n < 9216 then Vv (ix3 b i ⟨n, h⟩) * Ideal.exp (scoresRsqrt Q K b q ⟨n, h⟩) else 0

variable (b : Fin 2) (j : ℕ) (hj : j < 9) (x0 : Vec Ideal S1x64x2304 .f32) (x1 : Vec Ideal S1x64x1024 .f32)
  (hq : ∀ (d : Fin 64) (q : Fin 2304), x0 (ix3 (0 : Fin 1) d q) = Q (ix3 b d q))
  (hk : ∀ (d : Fin 64) (k : Fin 1024), x1 (ix3 (0 : Fin 1) d k) = K (ix3 b d (memPos j hj k)))

include hq hk in
/-- A block's weight is the weight of its memory position. -/
theorem weight_eq (k : Fin 1024) (q : Fin 2304) : weights x0 x1 (ix2 k q) = wAt Q K b q (1024 * j + k.val) := by
  rw [weights_apply]
  have hlt : 1024 * j + k.val < 9216 := (memPos j hj k).isLt
  rw [wAt, dif_pos hlt]
  have e1 : kc x1 k = kcol K b ⟨_, hlt⟩ := funext fun d => hk d k
  have e0 : qc x0 q = qcol Q b q := funext fun d => hq d q
  rw [e1, e0]
  rfl

include hq hk in
/-- The denominator after the block: the one before plus the block's weights. -/
theorem weightsSum_block (l : Vec Ideal S1x2304 .f32) (u : Fin 1) (q : Fin 2304) :
    weightsSum x0 x1 l (ix2 u q) = l (ix2 u q) + ∑ k ∈ Finset.range 1024, wAt Q K b q (1024 * j + k) := by
  rw [weightsSum_apply, Finset.sum_range]
  exact congrArg (l (ix2 u q) + ·) (Finset.sum_congr rfl fun k _ => weight_eq Q K b j hj x0 x1 hq hk k q)

include hq hk in
/-- The numerator after the block: the one before plus the block's weighted values. -/
theorem valuesSum_block (x2 : Vec Ideal S1x512x1024 .f32)
    (hv : ∀ (i : Fin 512) (k : Fin 1024), x2 (ix3 (0 : Fin 1) i k) = Vv (ix3 b i (memPos j hj k)))
    (acc : Vec Ideal S512x2304 .f32) (i : Fin 512) (q : Fin 2304) :
    valuesSum x0 x1 x2 acc (ix2 i q) = acc (ix2 i q) + ∑ k ∈ Finset.range 1024, vwAt Q K Vv b i q (1024 * j + k) := by
  rw [valuesSum_apply, Finset.sum_range]
  refine congrArg (acc (ix2 i q) + ·) (Finset.sum_congr rfl fun k _ => ?_)
  have hlt : 1024 * j + k.val < 9216 := (memPos j hj k).isLt
  rw [weight_eq Q K b j hj x0 x1 hq hk k q, hv i k, vwAt, dif_pos hlt, wAt, dif_pos hlt]
  rfl

end OneBlock

/-! ## Point by point -/

variable (m : (ℓ : Loc nD τ sig) → Buf (Elt Ideal) ℓ) (c : Dev nD)

/-- The three arrays as the region finds them: queries, keys, values. -/
abbrev Qa : SQ.Idx → EReal := V m c main_v0
abbrev Ka : SK.Idx → EReal := V m c main_v1
abbrev Va : SV.Idx → EReal := V m c main_v2

/-- The denominator and the numerator after point n. -/
abbrev den (n : ℕ) (hn : n < cfg0.N) : Vec Ideal S1x2304 .f32 := (outsAt0 m c n hn).2.1
abbrev num (n : ℕ) (hn : n < cfg0.N) : Vec Ideal S512x2304 .f32 := (outsAt0 m c n hn).2.2

theorem prev_lt (t : Fin cfg0.N) : t.val - 1 < cfg0.N := Nat.lt_of_le_of_lt (Nat.sub_le _ _) t.isLt

/-- The point's three input blocks, as arrays of their literal shapes. -/
def qblk (t : Fin cfg0.N) : Vec Ideal S1x64x2304 .f32 := iblk m c 0 t
def kblk (t : Fin cfg0.N) : Vec Ideal S1x64x1024 .f32 := iblk m c 1 t
def vblk (t : Fin cfg0.N) : Vec Ideal S1x512x1024 .f32 := iblk m c 2 t

theorem qblk_apply (t : Fin cfg0.N) (d : Fin 64) (q : Fin 2304) : qblk m c t (ix3 (0 : Fin 1) d q) = Qa m c (ix3 (batch t) d q) :=
  query_block m c t d q
theorem kblk_apply (t : Fin cfg0.N) (d : Fin 64) (k : Fin 1024) :
    kblk m c t (ix3 (0 : Fin 1) d k) = Ka m c (ix3 (batch t) d (memPos (t.val % 9) (block_lt t) k)) := key_block m c t d k
theorem vblk_apply (t : Fin cfg0.N) (i : Fin 512) (k : Fin 1024) :
    vblk m c t (ix3 (0 : Fin 1) i k) = Va m c (ix3 (batch t) i (memPos (t.val % 9) (block_lt t) k)) := value_block m c t i k

/-! ### The three cases, as equations between the accumulators -/

/-- At a first block the denominator restarts from zero. -/
theorem den_A (t : Fin cfg0.N) (h0 : t.val % 9 = 0) (h1 : ¬t.val % 9 = 8) :
    den m c t.val t.isLt = weightsSum (qblk m c t) (kblk m c t) (k0_pay3 (F := Ideal)) := by
  show (outsAt0 m c t.val t.isLt).2.1 = _
  rw [outsAt0_A m c t h0 h1]
  dsimp only
  exact den_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- At a first block the numerator restarts from zero. -/
theorem num_A (t : Fin cfg0.N) (h0 : t.val % 9 = 0) (h1 : ¬t.val % 9 = 8) :
    num m c t.val t.isLt = valuesSum (qblk m c t) (kblk m c t) (vblk m c t) (k0_pay4 (F := Ideal)) := by
  show (outsAt0 m c t.val t.isLt).2.2 = _
  rw [outsAt0_A m c t h0 h1]
  dsimp only
  exact num_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- At a middle block the denominator continues. -/
theorem den_B (t : Fin cfg0.N) (h0 : ¬t.val % 9 = 0) (h1 : ¬t.val % 9 = 8) :
    den m c t.val t.isLt = weightsSum (qblk m c t) (kblk m c t) (den m c (t.val - 1) (prev_lt t)) := by
  show (outsAt0 m c t.val t.isLt).2.1 = _
  rw [outsAt0_B m c t h0 h1]
  dsimp only
  exact den_middle (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a middle block the numerator continues. -/
theorem num_B (t : Fin cfg0.N) (h0 : ¬t.val % 9 = 0) (h1 : ¬t.val % 9 = 8) :
    num m c t.val t.isLt = valuesSum (qblk m c t) (kblk m c t) (vblk m c t) (num m c (t.val - 1) (prev_lt t)) := by
  show (outsAt0 m c t.val t.isLt).2.2 = _
  rw [outsAt0_B m c t h0 h1]
  dsimp only
  exact num_middle (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a last block the denominator continues. -/
theorem den_C (t : Fin cfg0.N) (h0 : ¬t.val % 9 = 0) (h1 : t.val % 9 = 8) :
    den m c t.val t.isLt = weightsSum (qblk m c t) (kblk m c t) (den m c (t.val - 1) (prev_lt t)) := by
  show (outsAt0 m c t.val t.isLt).2.1 = _
  rw [outsAt0_C m c t h0 h1]
  dsimp only
  exact den_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a last block the numerator continues. -/
theorem num_C (t : Fin cfg0.N) (h0 : ¬t.val % 9 = 0) (h1 : t.val % 9 = 8) :
    num m c t.val t.isLt = valuesSum (qblk m c t) (kblk m c t) (vblk m c t) (num m c (t.val - 1) (prev_lt t)) := by
  show (outsAt0 m c t.val t.isLt).2.2 = _
  rw [outsAt0_C m c t h0 h1]
  dsimp only
  exact num_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a last block the output block is the quotient of the accumulators as just updated. -/
theorem out_C (t : Fin cfg0.N) (h0 : ¬t.val % 9 = 0) (h1 : t.val % 9 = 8) :
    (outsAt0 m c t.val t.isLt).1 = k0_pay2 (valuesSum (qblk m c t) (kblk m c t) (vblk m c t) (num m c (t.val - 1) (prev_lt t))) (weightsSum (qblk m c t) (kblk m c t) (den m c (t.val - 1) (prev_lt t))) := by
  show (outsAt0 m c t.val t.isLt).1 = _
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-! ### At an entry -/

/-- At a first block the denominator is that block's sum. -/
theorem den_start (n : ℕ) (hn : n < cfg0.N) (h0 : n % 9 = 0) (u : Fin 1) (q : Fin 2304) :
    den m c n hn (ix2 u q) = ∑ k ∈ Finset.range 1024, wAt (Qa m c) (Ka m c) (batch ⟨n, hn⟩) q (1024 * (n % 9) + k) := by
  have h1 : ¬n % 9 = 8 := by omega
  refine (congrFun (den_A m c ⟨n, hn⟩ h0 h1) (ix2 u q)).trans ?_
  refine (weightsSum_block (Qa m c) (Ka m c) (batch ⟨n, hn⟩) (n % 9) (block_lt ⟨n, hn⟩) (qblk m c ⟨n, hn⟩) (kblk m c ⟨n, hn⟩)
    (qblk_apply m c ⟨n, hn⟩) (kblk_apply m c ⟨n, hn⟩) (k0_pay3 (F := Ideal)) u q).trans ?_
  rw [den_zero_apply, zero_add]

/-- At a first block the numerator is that block's sum. -/
theorem num_start (n : ℕ) (hn : n < cfg0.N) (h0 : n % 9 = 0) (i : Fin 512) (q : Fin 2304) :
    num m c n hn (ix2 i q) = ∑ k ∈ Finset.range 1024, vwAt (Qa m c) (Ka m c) (Va m c) (batch ⟨n, hn⟩) i q (1024 * (n % 9) + k) := by
  have h1 : ¬n % 9 = 8 := by omega
  refine (congrFun (num_A m c ⟨n, hn⟩ h0 h1) (ix2 i q)).trans ?_
  refine (valuesSum_block (Qa m c) (Ka m c) (Va m c) (batch ⟨n, hn⟩) (n % 9) (block_lt ⟨n, hn⟩) (qblk m c ⟨n, hn⟩) (kblk m c ⟨n, hn⟩)
    (qblk_apply m c ⟨n, hn⟩) (kblk_apply m c ⟨n, hn⟩) (vblk m c ⟨n, hn⟩) (vblk_apply m c ⟨n, hn⟩) (k0_pay4 (F := Ideal)) i q).trans ?_
  rw [num_zero_apply, zero_add]

/-- At a later block the denominator grows by that block's sum. -/
theorem den_step (n : ℕ) (hn : n + 1 < cfg0.N) (h0 : ¬(n + 1) % 9 = 0) (u : Fin 1) (q : Fin 2304) :
    den m c (n + 1) hn (ix2 u q) = den m c n (Nat.lt_of_succ_lt hn) (ix2 u q)
      + ∑ k ∈ Finset.range 1024, wAt (Qa m c) (Ka m c) (batch ⟨n + 1, hn⟩) q (1024 * ((n + 1) % 9) + k) := by
  have e : den m c (n + 1) hn = weightsSum (qblk m c ⟨n + 1, hn⟩) (kblk m c ⟨n + 1, hn⟩) (den m c n (Nat.lt_of_succ_lt hn)) := by
    by_cases h1 : (n + 1) % 9 = 8
    · exact den_C m c ⟨n + 1, hn⟩ h0 h1
    · exact den_B m c ⟨n + 1, hn⟩ h0 h1
  refine (congrFun e (ix2 u q)).trans ?_
  exact weightsSum_block (Qa m c) (Ka m c) (batch ⟨n + 1, hn⟩) ((n + 1) % 9) (block_lt ⟨n + 1, hn⟩) (qblk m c ⟨n + 1, hn⟩) (kblk m c ⟨n + 1, hn⟩)
    (qblk_apply m c ⟨n + 1, hn⟩) (kblk_apply m c ⟨n + 1, hn⟩) (den m c n (Nat.lt_of_succ_lt hn)) u q

/-- At a later block the numerator grows by that block's sum. -/
theorem num_step (n : ℕ) (hn : n + 1 < cfg0.N) (h0 : ¬(n + 1) % 9 = 0) (i : Fin 512) (q : Fin 2304) :
    num m c (n + 1) hn (ix2 i q) = num m c n (Nat.lt_of_succ_lt hn) (ix2 i q)
      + ∑ k ∈ Finset.range 1024, vwAt (Qa m c) (Ka m c) (Va m c) (batch ⟨n + 1, hn⟩) i q (1024 * ((n + 1) % 9) + k) := by
  have e : num m c (n + 1) hn = valuesSum (qblk m c ⟨n + 1, hn⟩) (kblk m c ⟨n + 1, hn⟩) (vblk m c ⟨n + 1, hn⟩) (num m c n (Nat.lt_of_succ_lt hn)) := by
    by_cases h1 : (n + 1) % 9 = 8
    · exact num_C m c ⟨n + 1, hn⟩ h0 h1
    · exact num_B m c ⟨n + 1, hn⟩ h0 h1
  refine (congrFun e (ix2 i q)).trans ?_
  exact valuesSum_block (Qa m c) (Ka m c) (Va m c) (batch ⟨n + 1, hn⟩) ((n + 1) % 9) (block_lt ⟨n + 1, hn⟩) (qblk m c ⟨n + 1, hn⟩) (kblk m c ⟨n + 1, hn⟩)
    (qblk_apply m c ⟨n + 1, hn⟩) (kblk_apply m c ⟨n + 1, hn⟩) (vblk m c ⟨n + 1, hn⟩) (vblk_apply m c ⟨n + 1, hn⟩) (num m c n (Nat.lt_of_succ_lt hn)) i q

/-! ### The partial sums -/

/-- A sum over the first a positions followed by the next 1024 is the sum over the first a + 1024. -/
theorem extend_range (f : ℕ → EReal) (j j' : ℕ) (hj : j' = j + 1) :
    ∑ k ∈ Finset.range (1024 * (j + 1)), f k + ∑ k ∈ Finset.range 1024, f (1024 * j' + k) = ∑ k ∈ Finset.range (1024 * (j' + 1)), f k := by
  subst hj
  rw [show 1024 * (j + 1 + 1) = 1024 * (j + 1) + 1024 by ring, Finset.sum_range_add]

theorem first_range (f : ℕ → EReal) (j : ℕ) (hj : j = 0) :
    ∑ k ∈ Finset.range 1024, f (1024 * j + k) = ∑ k ∈ Finset.range (1024 * (j + 1)), f k := by
  subst hj; simp only [Nat.mul_zero, Nat.zero_add, Nat.mul_one]

theorem batch_succ (n : ℕ) (hn : n + 1 < cfg0.N) (h0 : ¬(n + 1) % 9 = 0) : batch ⟨n + 1, hn⟩ = batch ⟨n, Nat.lt_of_succ_lt hn⟩ :=
  Fin.ext (show (n + 1) / 9 = n / 9 by omega)

/-- After point n the denominator is the sum of the weights of the first 1024·(n % 9 + 1) memory positions. -/
theorem den_acc : ∀ (n : ℕ) (hn : n < cfg0.N) (u : Fin 1) (q : Fin 2304),
    den m c n hn (ix2 u q) = ∑ k ∈ Finset.range (1024 * (n % 9 + 1)), wAt (Qa m c) (Ka m c) (batch ⟨n, hn⟩) q k := by
  intro n
  induction n with
  | zero => intro hn u q; exact (den_start m c 0 hn rfl u q).trans (first_range _ _ rfl)
  | succ n ih =>
    intro hn u q
    by_cases h0 : (n + 1) % 9 = 0
    · exact (den_start m c (n + 1) hn h0 u q).trans (first_range _ _ h0)
    · rw [den_step m c n hn h0 u q, ih (Nat.lt_of_succ_lt hn) u q, batch_succ n hn h0]
      exact extend_range _ (n % 9) ((n + 1) % 9) (by omega)

/-- After point n the numerator is the sum of the weighted values of the first 1024·(n % 9 + 1) memory positions. -/
theorem num_acc : ∀ (n : ℕ) (hn : n < cfg0.N) (i : Fin 512) (q : Fin 2304),
    num m c n hn (ix2 i q) = ∑ k ∈ Finset.range (1024 * (n % 9 + 1)), vwAt (Qa m c) (Ka m c) (Va m c) (batch ⟨n, hn⟩) i q k := by
  intro n
  induction n with
  | zero => intro hn i q; exact (num_start m c 0 hn rfl i q).trans (first_range _ _ rfl)
  | succ n ih =>
    intro hn i q
    by_cases h0 : (n + 1) % 9 = 0
    · exact (num_start m c (n + 1) hn h0 i q).trans (first_range _ _ h0)
    · rw [num_step m c n hn h0 i q, ih (Nat.lt_of_succ_lt hn) i q, batch_succ n hn h0]
      exact extend_range _ (n % 9) ((n + 1) % 9) (by omega)

/-! ### The block written at a last point -/

/-- The sum over all 9216 positions, as a sum over the index type. -/
theorem all_weights (b : Fin 2) (q : Fin 2304) :
    ∑ k ∈ Finset.range 9216, wAt (Qa m c) (Ka m c) b q k = ∑ n : Fin 9216, Ideal.exp (scoresRsqrt (Qa m c) (Ka m c) b q n) := by
  rw [Finset.sum_range]
  exact Finset.sum_congr rfl fun n _ => by rw [wAt, dif_pos n.isLt]

theorem all_values (b : Fin 2) (i : Fin 512) (q : Fin 2304) :
    ∑ k ∈ Finset.range 9216, vwAt (Qa m c) (Ka m c) (Va m c) b i q k
      = ∑ n : Fin 9216, vrow (Va m c) b i n * Ideal.exp (scoresRsqrt (Qa m c) (Ka m c) b q n) := by
  rw [Finset.sum_range]
  exact Finset.sum_congr rfl fun n _ => by rw [vwAt, dif_pos n.isLt]; rfl

/-- THE OUTPUT BLOCK of a last point: entry (i, q) is the attention read-out of batch b = t / 9, one division at the end. -/
theorem out_last_apply (t : Fin cfg0.N) (h1 : t.val % 9 = 8) (u : Fin 1) (i : Fin 512) (q : Fin 2304) :
    (outsAt0 m c t.val t.isLt).1 (ix3 u i q) = attnPlain (Qa m c) (Ka m c) (Va m c) (ix3 (batch t) i q) := by
  have h0 : ¬t.val % 9 = 0 := by omega
  have e : (outsAt0 m c t.val t.isLt).1 = k0_pay2 (num m c t.val t.isLt) (den m c t.val t.isLt) := by
    rw [num_C m c t h0 h1, den_C m c t h0 h1]; exact out_C m c t h0 h1
  refine (congrFun e (ix3 u i q)).trans ?_
  rw [quotient_apply, num_acc m c t.val t.isLt i q, den_acc m c t.val t.isLt 0 q, h1]
  show Ideal.div (∑ k ∈ Finset.range 9216, _) (∑ k ∈ Finset.range 9216, _) = _
  rw [all_values, all_weights]
  rfl

end Cert.KernelIdeal.Accum

end
-- ==== Proof.KernelHost.lean ====
/-
  The host operations around the kernel's region.

  Before the region three reshapes flatten the two spatial axes (and the memory axis) of the arguments:
  queries [2,64,48,48] -> [2,64,2304], keys [2,64,4,48,48] -> [2,64,9216], values [2,512,4,48,48] -> [2,512,9216].
  After it one reshape unflattens the region's output [2,512,2304] -> [2,512,48,48].
  So the region is entered with the reshaped arguments, and the program's result is the reshape of what the region
  left in its output array; the arguments themselves are never written.
-/
import proofs.«155069_g31954556682489_cont_9to1_1970_25_alg».proof.Proof.Gen.KernelIdeal.Frame
import Idealize.ShloMosaic.Lib.StableHlo.Run
import Idealize.ShloMosaic.Lib.Pipeline.Value
set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

variable (m : (ℓ : Loc nD τ sig) → Buf (Elt F) ℓ) (ρ : Dev nD → PrngReg)

/-- The region finds the queries reshaped to [2, 64, 2304]. -/
theorem entry_queries (c : Dev nD) :
    (V m c main_v0 : S2x64x2304.Idx → Elt F .f32)
      = shapeCast S2x64x2304 (m ((c : Thread nD τ).loc main_arg0)) shapeCasts_S2x64x48x48_S2x64x2304 := by
  show StableHlo.after hostOps0 (fun b => m (c, b)) (Proc.devRef .tc main_v0) = _
  after_results
  rfl

/-- The region finds the keys reshaped to [2, 64, 9216]. -/
theorem entry_keys (c : Dev nD) :
    (V m c main_v1 : S2x64x9216.Idx → Elt F .f32)
      = shapeCast S2x64x9216 (m ((c : Thread nD τ).loc main_arg1)) shapeCasts_S2x64x4x48x48_S2x64x9216 := by
  show StableHlo.after hostOps0 (fun b => m (c, b)) (Proc.devRef .tc main_v1) = _
  after_results
  rfl

/-- The region finds the values reshaped to [2, 512, 9216]. -/
theorem entry_values (c : Dev nD) :
    (V m c main_v2 : S2x512x9216.Idx → Elt F .f32)
      = shapeCast S2x512x9216 (m ((c : Thread nD τ).loc main_arg2)) shapeCasts_S2x512x4x48x48_S2x512x9216 := by
  show StableHlo.after hostOps0 (fun b => m (c, b)) (Proc.devRef .tc main_v2) = _
  after_results
  rfl

/-- The reshape after the region reads the region's output array (window 3) as the region left it. -/
theorem tail_result (c : Dev nD) :
    (Pipeline.afterTail₀ cfgs (dats m) 0 (V0 m) [hostOps1] c main_v4 : S2x512x48x48.Idx → Elt F .f32)
      = shapeCast S2x512x48x48 ((dats m 0 c).arrAt 3 cfg0.N) shapeCasts_S2x512x2304_S2x512x48x48 := by
  unfold Pipeline.afterTail₀
  show StableHlo.after hostOps1 _ (Proc.devRef .tc main_v4) = _
  after_results
  exact congrArg (fun A => shapeCast S2x512x48x48 A shapeCasts_S2x512x2304_S2x512x48x48)
    (Pipeline.withArrays_arr spec0 launch0.win.arr_inj c _ _ 3)

/-- Every weakly fair execution terminates; the result array ends as the reshape of the region's output array, and the
    three argument arrays end as they started. -/
theorem run_result : θ_run defs (onTc (τ := τ) (main (F := F))) ⟨m, fun _ => 0, ρ⟩ (fun r => ∀ c : Dev nD,
      r.2.mem ((c : Thread nD τ).loc main_v4)
        = shapeCast S2x512x48x48 ((dats m 0 c).arrAt 3 cfg0.N) shapeCasts_S2x512x2304_S2x512x48x48
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).2 main_v4 (Pipeline.mem_restRefs_of main_v4 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Host

end
-- ==== Proof.KernelResult.lean ====
/-
  The kernel's result array.

  Only the last block of each batch entry (points 8 and 17) writes its output block back, and that block is all of the
  batch entry's [512, 2304] result; the two blocks cover the result array.  By the accumulation (KernelAccum) the block
  is the attention read-out with one division at the end, so the whole array is `attnPlain` of the queries, keys and
  values as the region finds them — the three arguments reshaped — and the program's result is that array reshaped.
-/
import proofs.«155069_g31954556682489_cont_9to1_1970_25_alg».proof.Proof.KernelAccum
import proofs.«155069_g31954556682489_cont_9to1_1970_25_alg».proof.Proof.KernelHost

set_option maxRecDepth 16384

noncomputable section

namespace Cert.KernelIdeal.Result

open Idealize.ShloMosaic Idealize.ShloMosaic.ValueIdx Idealize.ShloMosaic.TcCoe Idealize.SL.Sem
open Cert.KernelIdeal Cert.KernelIdeal.Gen Cert.KernelIdeal.Blocks Cert.KernelIdeal.Accum Cert.Attn

variable (m : (ℓ : Loc nD τ sig) → Buf (Elt Ideal) ℓ) (ρ : Dev nD → PrngReg)

/-- The output window is written back exactly at the last block of each batch entry. -/
theorem flush_iff : ∀ t : Fin cfg0.N, (cfg0.win 3).flush t = true ↔ t.val % 9 = 8 :=
  (by decide +kernel : ∀ t : Fin grid0.N, _)

/-- An entry of the block a last point leaves, at its place in the result array. -/
theorem out_entry (c : Dev nD) (t : Fin cfg0.N) (h1 : t.val % 9 = 8) (y : S1x512x2304.Idx) :
    (outsAt0 m c t.val t.isLt).1 y = attnPlain (Qa m c) (Ka m c) (Va m c) (((cfg0.win 3).blk t).view.emb y) := by
  obtain ⟨u, i, q, rfl⟩ : ∃ (u : Fin 1) (i : Fin 512) (q : Fin 2304), y = ix3 u i q := ⟨y 0, y 1, y 2, eq_ix3 y⟩
  rw [result_block t u i q]
  exact out_last_apply m c t h1 u i q

/-- WHAT A FLUSHING POINT WRITES BACK is its block of the attention read-out. -/
theorem flushed_eq (c : Dev nD) (t : Fin cfg0.N) (hf : (cfg0.win 3).flush t = true) :
    (dats m 0 c).flushed 3 t = ((cfg0.win 3).blk t).view.read (Elt Ideal) (attnPlain (Qa m c) (Ka m c) (Va m c)) := by
  have h1 : t.val % 9 = 8 := (flush_iff t).mp hf
  show (cfg0.win 3).cut (grid0.coords t) ((dats m 0 c).after 3 t) = _
  rw [after0_3]
  funext y
  exact out_entry m c t h1 y

/-- An index of the result array is in point t's block iff each coordinate is in the block's range on its axis. -/
theorem mem_block (t : Fin cfg0.N) (i : S2x512x2304.Idx) :
    i ∈ ((cfg0.win 3).blk t).view.set ↔ ∀ a : Fin 3, win0_3.index t a * S1x512x2304.size a ≤ (i a).val ∧ (i a).val < win0_3.index t a * S1x512x2304.size a + S1x512x2304.size a := by
  show i ∈ ((View.whole main_v3).slice (win0_3.rect t)).set ↔ _
  rw [View.set_slice_whole, Rect.mem_set_unit]
  exact Iff.rfl

/-- Every entry of the result array is in the block of its batch entry's last point. -/
theorem covered (i : S2x512x2304.Idx) : ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 2304 := (i 2).isLt
  have hN : 9 * (i 0).val + 8 < cfg0.N := by rw [points]; omega
  refine ⟨⟨9 * (i 0).val + 8, hN⟩, (flush_iff _).mpr (by show (9 * (i 0).val + 8) % 9 = 8; omega), ?_⟩
  obtain ⟨-, -, -, -, -, -, -, -, -, e0, e1, e2⟩ := index_maps (⟨9 * (i 0).val + 8, hN⟩ : Fin cfg0.N)
  have e0' : win0_3.index ⟨9 * (i 0).val + 8, hN⟩ (0 : Fin 3) = (i 0).val := by rw [e0]; show (9 * (i 0).val + 8) / 9 = _; omega
  rw [mem_block]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 512 ≤ (i 1).val ∧ (i 1).val < win0_3.index _ (1 : Fin 3) * 512 + 512; omega
  | ⟨2, _⟩ => show win0_3.index _ (2 : Fin 3) * 2304 ≤ (i 2).val ∧ (i 2).val < win0_3.index _ (2 : Fin 3) * 2304 + 2304; omega

/-- THE RESULT ARRAY after the region: the attention read-out of the arrays the region finds. -/
theorem final (c : Dev nD) : (dats m 0 c).arrAt 3 cfg0.N = attnPlain (Qa m c) (Ka m c) (Va m c) :=
  (dats m 0 c).arrAt_eq_of_cover 3 (attnPlain (Qa m c) (Ka m c) (Va m c)) (fun t hf => flushed_eq m c t hf) covered

/-- The function both programs compute: reshape the arguments, read out, reshape back. -/
def G (x0 : S2x64x48x48.Idx → EReal) (x1 : S2x64x4x48x48.Idx → EReal) (x2 : S2x512x4x48x48.Idx → EReal) : S2x512x48x48.Idx → EReal :=
  shapeCast S2x512x48x48
    (attnPlain (shapeCast S2x64x2304 x0 shapeCasts_S2x64x48x48_S2x64x2304) (shapeCast S2x64x9216 x1 shapeCasts_S2x64x4x48x48_S2x64x9216)
      (shapeCast S2x512x9216 x2 shapeCasts_S2x512x4x48x48_S2x512x9216)) shapeCasts_S2x512x2304_S2x512x48x48

/-- The region's result in terms of the arguments. -/
theorem final_args (c : Dev nD) :
    (dats m 0 c).arrAt 3 cfg0.N
      = attnPlain (shapeCast S2x64x2304 (m ((c : Thread nD τ).loc main_arg0)) shapeCasts_S2x64x48x48_S2x64x2304)
          (shapeCast S2x64x9216 (m ((c : Thread nD τ).loc main_arg1)) shapeCasts_S2x64x4x48x48_S2x64x9216)
          (shapeCast S2x512x9216 (m ((c : Thread nD τ).loc main_arg2)) shapeCasts_S2x512x4x48x48_S2x512x9216) := by
  rw [final m c]
  show attnPlain (V m c main_v0) (V m c main_v1) (V m c main_v2) = _
  rw [Cert.KernelIdeal.Host.entry_queries m c, Cert.KernelIdeal.Host.entry_keys m c, Cert.KernelIdeal.Host.entry_values m c]

/-- THE RUN: every weakly fair execution terminates with the result at `G` of the arguments, the arguments unchanged. -/
theorem run : θ_run defs (onTc (τ := τ) (main (F := Ideal))) ⟨m, fun _ => 0, ρ⟩ (fun r => ∀ c : Dev nD,
      r.2.mem ((c : Thread nD τ).loc main_v4) = G (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun r h c => ⟨(h c).1.trans (congrArg (fun A => shapeCast S2x512x48x48 A shapeCasts_S2x512x2304_S2x512x48x48) (final_args m c)), (h c).2⟩)
    (Cert.KernelIdeal.Host.run_result m ρ)

end Cert.KernelIdeal.Result

end
-- ==== Proof.RefRead.lean ====
/-
  The reference program read back as the specification.

  The reference normalises the queries [2, 64, 48, 48] and the keys [2, 64, 4, 48, 48] along the channel axis in
  their own layout, flattens the trailing axes (48·48 = 2304 query positions, 4·48·48 = 9216 memory positions), takes
  the scaled products of key and query columns, a softmax over the memory positions (every exponent shifted by the
  column's maximum, the weights normalised before use) and the weighted sum of the flattened values.  Flattening
  commutes with a normalisation along the channel axis, because row-major order keeps (batch, channel) in front: so,
  entry by entry, the result is `Cert.Attn.attnShifted` of the flattened arrays, with the shift the column maximum.
-/
import proofs.«155069_g31954556682489_cont_9to1_1970_25_alg».proof.Proof.Gen.ReferenceIdeal.Read
import proofs.«155069_g31954556682489_cont_9to1_1970_25_alg».proof.Proof.AttnSpec

noncomputable section

namespace Cert.RefRead

open Cert.ReferenceIdeal Cert.ReferenceIdeal.Gen Cert.ReferenceIdeal.Read Idealize.ShloMosaic Idealize.ShloMosaic.ValueIdx
open Idealize.ShloMosaic.StableHlo Cert.Attn

abbrev X0 : Type := (⟨S2x64x48x48, .f32⟩ : BufTy).Contents (Elt Ideal)
abbrev X1 : Type := (⟨S2x64x4x48x48, .f32⟩ : BufTy).Contents (Elt Ideal)
abbrev X2 : Type := (⟨S2x512x4x48x48, .f32⟩ : BufTy).Contents (Elt Ideal)

def Qof (x0 : X0) : SQ.Idx → EReal := shapeCast _ x0 shapeCasts_S2x64x48x48_S2x64x2304
def Kof (x1 : X1) : SK.Idx → EReal := shapeCast _ x1 shapeCasts_S2x64x4x48x48_S2x64x9216
def Vof (x2 : X2) : SV.Idx → EReal := shapeCast _ x2 shapeCasts_S2x512x4x48x48_S2x512x9216

/-! ## The two reshapes read at an index

Entry (b, d, q) of the flattened queries is entry (b, d, q / 48, q % 48) of the [2, 64, 48, 48] array, and entry
(b, d, m) of the flattened keys is entry (b, d, m / 2304, m / 48 % 48, m % 48) of the [2, 64, 4, 48, 48] one: both
are the same position in row-major order. -/

theorem idx16 (b : Fin 2) (d : Fin 64) (q : Fin 2304) :
    idx_main_v16 (ix3 b d q)
      = ix4 b d (⟨q.val / 48, by have := q.isLt; omega⟩ : Fin 48) (⟨q.val % 48, by omega⟩ : Fin 48) := by
  funext a; apply Fin.ext
  have hb := b.isLt; have hd := d.isLt; have hq := q.isLt
  match a with
  | ⟨0, _⟩ => show ((b.val * 64 + d.val) * 2304 + q.val) / 147456 = b.val; omega
  | ⟨1, _⟩ => show ((b.val * 64 + d.val) * 2304 + q.val) / 2304 % 64 = d.val; omega
  | ⟨2, _⟩ => show ((b.val * 64 + d.val) * 2304 + q.val) / 48 % 48 = q.val / 48; omega
  | ⟨3, _⟩ => show ((b.val * 64 + d.val) * 2304 + q.val) % 48 = q.val % 48; omega

theorem idx17 (b : Fin 2) (d : Fin 64) (m : Fin 9216) :
    idx_main_v17 (ix3 b d m)
      = ix5 b d (⟨m.val / 2304, by have := m.isLt; omega⟩ : Fin 4) (⟨m.val / 48 % 48, by omega⟩ : Fin 48)
          (⟨m.val % 48, by omega⟩ : Fin 48) := by
  funext a; apply Fin.ext
  have hb := b.isLt; have hd := d.isLt; have hm := m.isLt
  match a with
  | ⟨0, _⟩ => show ((b.val * 64 + d.val) * 9216 + m.val) / 589824 = b.val; omega
  | ⟨1, _⟩ => show ((b.val * 64 + d.val) * 9216 + m.val) / 9216 % 64 = d.val; omega
  | ⟨2, _⟩ => show ((b.val * 64 + d.val) * 9216 + m.val) / 2304 % 4 = m.val / 2304; omega
  | ⟨3, _⟩ => show ((b.val * 64 + d.val) * 9216 + m.val) / 48 % 48 = m.val / 48 % 48; omega
  | ⟨4, _⟩ => show ((b.val * 64 + d.val) * 9216 + m.val) % 48 = m.val % 48; omega

/-- The flattened queries read at an index. -/
theorem Qof_apply (x0 : X0) (i : S2x64x2304.Idx) : Qof x0 i = x0 (idx_main_v16 i) := by
  unfold Qof
  exact shapeCast_apply x0 shapeCasts_S2x64x48x48_S2x64x2304 i (idx_main_v16 i)
    (by rewrite [Shape.rowMajor_val_four, Shape.rowMajor_val_three]; have h0 : (i 0).val < 2 := (i 0).isLt; have h1 : (i 1).val < 64 := (i 1).isLt; have h2 : (i 2).val < 2304 := (i 2).isLt; show (((((i 0).val * 64 + (i 1).val) * 2304 + (i 2).val) / 147456 * 64 + (((i 0).val * 64 + (i 1).val) * 2304 + (i 2).val) / 2304 % 64) * 48 + (((i 0).val * 64 + (i 1).val) * 2304 + (i 2).val) / 48 % 48) * 48 + (((i 0).val * 64 + (i 1).val) * 2304 + (i 2).val) % 48 = ((i 0).val * 64 + (i 1).val) * 2304 + (i 2).val; omega)

/-- The flattened keys read at an index. -/
theorem Kof_apply (x1 : X1) (i : S2x64x9216.Idx) : Kof x1 i = x1 (idx_main_v17 i) := by
  unfold Kof
  exact shapeCast_apply x1 shapeCasts_S2x64x4x48x48_S2x64x9216 i (idx_main_v17 i)
    (by rewrite [Shape.rowMajor_val_five, Shape.rowMajor_val_three]; have h0 : (i 0).val < 2 := (i 0).isLt; have h1 : (i 1).val < 64 := (i 1).isLt; have h2 : (i 2).val < 9216 := (i 2).isLt; show ((((((i 0).val * 64 + (i 1).val) * 9216 + (i 2).val) / 589824 * 64 + (((i 0).val * 64 + (i 1).val) * 9216 + (i 2).val) / 9216 % 64) * 4 + (((i 0).val * 64 + (i 1).val) * 9216 + (i 2).val) / 2304 % 4) * 48 + (((i 0).val * 64 + (i 1).val) * 9216 + (i 2).val) / 48 % 48) * 48 + (((i 0).val * 64 + (i 1).val) * 9216 + (i 2).val) % 48 = ((i 0).val * 64 + (i 1).val) * 9216 + (i 2).val; omega)

/-! ## The normalised columns

The reference normalises before it flattens: at (b, d, r, c) it divides by the clamped root of the sum over the
channel axis at the SAME (b, r, c).  Read through the reshape, that is the flattened column divided by its own
clamped length. -/

/-- Broadcasting the reduced [2, 48, 48] array back over the channels and summing over channel `k` reads (b, k, r, c). -/
theorem idx_chan4 (b : Fin 2) (d k : Fin 64) (r c : Fin 48) :
    idx_main_v1 (idx_main_v2 (idx_main_v6 (ix4 b d r c))) k = ix4 b k r c := by
  funext a; apply Fin.ext
  match a with
  | ⟨0, _⟩ => rfl
  | ⟨1, _⟩ => rfl
  | ⟨2, _⟩ => rfl
  | ⟨3, _⟩ => rfl

theorem idx_chan5 (b : Fin 2) (d k : Fin 64) (t : Fin 4) (r c : Fin 48) :
    idx_main_v9 (idx_main_v10 (idx_main_v14 (ix5 b d t r c))) k = ix5 b k t r c := by
  funext a; apply Fin.ext
  match a with
  | ⟨0, _⟩ => rfl
  | ⟨1, _⟩ => rfl
  | ⟨2, _⟩ => rfl
  | ⟨3, _⟩ => rfl
  | ⟨4, _⟩ => rfl

theorem v7_at (x0 : X0) (b : Fin 2) (d : Fin 64) (r c : Fin 48) :
    val_main_v7 (F := Ideal) x0 (ix4 b d r c)
      = Ideal.div (x0 (ix4 b d r c))
          (max (Ideal.sqrt (∑ k : Fin 64, x0 (ix4 b k r c) * x0 (ix4 b k r c))) epsNorm) := by
  rw [val_main_v7_apply, val_main_v6_apply, val_main_v5_apply, val_main_v3_apply, val_main_v2_apply, val_main_v1_apply,
    val_main_v4_apply, val_main_cst_0_apply, val_main_cst_apply]
  simp only [val_main_v0_apply, idx_chan4, Ideal.hostDivf_def, Ideal.maximumf_def, Ideal.hostUnary_sqrt_def,
    Ideal.mulf_def, Ideal.ofBits_def, Ideal.ofBits_zero_f32, zero_add]
  rfl

theorem v15_at (x1 : X1) (b : Fin 2) (d : Fin 64) (t : Fin 4) (r c : Fin 48) :
    val_main_v15 (F := Ideal) x1 (ix5 b d t r c)
      = Ideal.div (x1 (ix5 b d t r c))
          (max (Ideal.sqrt (∑ k : Fin 64, x1 (ix5 b k t r c) * x1 (ix5 b k t r c))) epsNorm) := by
  rw [val_main_v15_apply, val_main_v14_apply, val_main_v13_apply, val_main_v11_apply, val_main_v10_apply,
    val_main_v9_apply, val_main_v12_apply, val_main_cst_2_apply, val_main_cst_1_apply]
  simp only [val_main_v8_apply, idx_chan5, Ideal.hostDivf_def, Ideal.maximumf_def, Ideal.hostUnary_sqrt_def,
    Ideal.mulf_def, Ideal.ofBits_def, Ideal.ofBits_zero_f32, zero_add]
  rfl

/-- The reference's normalised, flattened queries are the flattened queries' columns divided by their clamped length. -/
theorem v16_at (x0 : X0) (b : Fin 2) (d : Fin 64) (q : Fin 2304) :
    val_main_v16 (F := Ideal) x0 (ix3 b d q) = unitByNorm (qcol (Qof x0) b q) d := by
  rw [val_main_v16_apply, idx16, v7_at]
  simp only [unitByNorm, sumSq, qcol, Qof_apply, idx16]

/-- The same for the keys. -/
theorem v17_at (x1 : X1) (b : Fin 2) (d : Fin 64) (m : Fin 9216) :
    val_main_v17 (F := Ideal) x1 (ix3 b d m) = unitByNorm (kcol (Kof x1) b m) d := by
  rw [val_main_v17_apply, idx17, v15_at]
  simp only [unitByNorm, sumSq, kcol, Kof_apply, idx17]

/-! ## The scores -/

theorem lidx19 (b : Fin 2) (m : Fin 9216) (q : Fin 2304) (k : Fin 64) : lidx_main_v19 (ix3 b m q) k = ix3 b k m := by
  funext a; apply Fin.ext
  match a with
  | ⟨0, _⟩ => rfl
  | ⟨1, _⟩ => rfl
  | ⟨2, _⟩ => rfl

theorem ridx19 (b : Fin 2) (m : Fin 9216) (q : Fin 2304) (k : Fin 64) : ridx_main_v19 (ix3 b m q) k = ix3 b k q := by
  funext a; apply Fin.ext
  match a with
  | ⟨0, _⟩ => rfl
  | ⟨1, _⟩ => rfl
  | ⟨2, _⟩ => rfl

/-- Entry (b, m, q) of the scaled product of the normalised keys and queries is the score of key column `m`
    against query column `q`, both divided by their clamped lengths. -/
theorem scores_eq (x0 : X0) (x1 : X1) (b : Fin 2) (mm : Fin 9216) (q : Fin 2304) :
    val_main_v21 (F := Ideal) x0 x1 (ix3 b mm q) = scoresNorm (Qof x0) (Kof x1) b q mm := by
  rw [val_main_v21_apply, val_main_v20_apply, val_main_cst_3_apply, val_main_v19_apply]
  simp only [lidx19, ridx19, v16_at, v17_at, Ideal.mulf_def, Ideal.ofBits_def]
  rfl

/-! ## The softmax weights and the read-out -/

/-- The number the reference subtracts from every score of query column `q` of batch entry `b` before
    exponentiating: the maximum over the memory positions (and −∞). -/
def shift (x0 : X0) (x1 : X1) : Fin 2 → Fin 2304 → EReal := fun b q => val_main_v24 (F := Ideal) x0 x1 (ix2 b q)

theorem idx_shift (b : Fin 2) (m : Fin 9216) (q : Fin 2304) : idx_main_v25 (idx_main_v26 (ix3 b m q)) = ix2 b q := by
  funext a; apply Fin.ext
  match a with
  | ⟨0, _⟩ => rfl
  | ⟨1, _⟩ => rfl

theorem idx_denom (b : Fin 2) (m k : Fin 9216) (q : Fin 2304) :
    idx_main_v29 (idx_main_v30 (idx_main_v31 (ix3 b m q))) k = ix3 b k q := by
  funext a; apply Fin.ext
  match a with
  | ⟨0, _⟩ => rfl
  | ⟨1, _⟩ => rfl
  | ⟨2, _⟩ => rfl

/-- The unnormalised weight of memory position `m`. -/
theorem v28_at (x0 : X0) (x1 : X1) (b : Fin 2) (m : Fin 9216) (q : Fin 2304) :
    val_main_v28 (F := Ideal) x0 x1 (ix3 b m q)
      = Ideal.exp (scoresNorm (Qof x0) (Kof x1) b q m - shift x0 x1 b q) := by
  rw [val_main_v28_apply, val_main_v27_apply, val_main_v26_apply, val_main_v25_apply, scores_eq, idx_shift]
  simp only [Ideal.hostUnary_exp_def, Ideal.subf_def]
  rfl

/-- The normalised weight of memory position `m`: its exponential over the sum of all of them. -/
theorem v32_at (x0 : X0) (x1 : X1) (b : Fin 2) (m : Fin 9216) (q : Fin 2304) :
    val_main_v32 (F := Ideal) x0 x1 (ix3 b m q)
      = Ideal.div (Ideal.exp (scoresNorm (Qof x0) (Kof x1) b q m - shift x0 x1 b q))
          (∑ m' : Fin 9216, Ideal.exp (scoresNorm (Qof x0) (Kof x1) b q m' - shift x0 x1 b q)) := by
  rw [val_main_v32_apply, val_main_v31_apply, val_main_v30_apply, val_main_v29_apply, val_main_cst_6_apply, v28_at]
  simp only [idx_denom, v28_at, Ideal.hostDivf_def, Ideal.ofBits_def, Ideal.ofBits_zero_f32, zero_add]

theorem lidx33 (b : Fin 2) (v : Fin 512) (q : Fin 2304) (k : Fin 9216) : lidx_main_v33 (ix3 b v q) k = ix3 b v k := by
  funext a; apply Fin.ext
  match a with
  | ⟨0, _⟩ => rfl
  | ⟨1, _⟩ => rfl
  | ⟨2, _⟩ => rfl

theorem ridx33 (b : Fin 2) (v : Fin 512) (q : Fin 2304) (k : Fin 9216) : ridx_main_v33 (ix3 b v q) k = ix3 b k q := by
  funext a; apply Fin.ext
  match a with
  | ⟨0, _⟩ => rfl
  | ⟨1, _⟩ => rfl
  | ⟨2, _⟩ => rfl

/-- The reference's result before its last reshape IS the attention read-out with columns normalised by their
    length and the softmax weights formed first, every exponent shifted by `shift`. -/
theorem ref_eq (x0 : X0) (x1 : X1) (x2 : X2) :
    val_main_v33 (F := Ideal) x0 x1 x2 = attnShifted (Qof x0) (Kof x1) (Vof x2) (shift x0 x1) := by
  funext i
  obtain ⟨b, v, q, rfl⟩ : ∃ b v q, i = ix3 b v q := ⟨i 0, i 1, i 2, eq_ix3 i⟩
  rw [val_main_v33_apply]
  simp only [lidx33, ridx33, v32_at]
  rfl

end Cert.RefRead

end
-- ==== Proof.RefReadShift.lean ====
/-
  The shift of the reference's softmax is a real number whenever the scores are.

  The shift of query column q of batch entry b is the maximum, taken from −∞, of that column's 9216 scores.  The
  maximum of a nonempty finite family of reals is one of its members, hence real.
-/
import proofs.«155069_g31954556682489_cont_9to1_1970_25_alg».proof.Proof.RefRead

noncomputable section

namespace Cert.RefRead

open Cert.ReferenceIdeal Cert.ReferenceIdeal.Gen Cert.ReferenceIdeal.Read Idealize.ShloMosaic Idealize.ShloMosaic.ValueIdx
open Idealize.ShloMosaic.StableHlo Cert.Attn

/-- A fold of `max` from −∞ over a nonempty finite family of reals is a real: it is the family's supremum, which a
    nonempty finite family in a linear order attains. -/
theorem fold_max_real {ι : Type} [Fintype ι] [Nonempty ι] (f : ι → EReal) (hf : ∀ i, ∃ r : ℝ, f i = (r : EReal)) :
    ∃ r : ℝ, (Finset.univ : Finset ι).fold max ⊥ f = (r : EReal) := by
  obtain ⟨i, _, hi⟩ := Finset.exists_mem_eq_sup (Finset.univ : Finset ι) Finset.univ_nonempty f
  obtain ⟨r, hr⟩ := hf i
  exact ⟨r, (show (Finset.univ : Finset ι).fold max ⊥ f = (Finset.univ : Finset ι).sup f from rfl).trans (hi.trans hr)⟩

/-- The word 0xFF800000 is −∞. -/
theorem negInf_bits : Ideal.ofBits .f32 0xFF800000#32 = (⊥ : EReal) := by simp [Ideal.ofBits, Ideal.ieee]

/-- Dropping the memory axis of [2, 9216, 2304] leaves [2, 2304]. -/
theorem reduces_d1 : S2x9216x2304.Reduces [1] S2x2304 := by decide

theorem shift_real (x0 : X0) (x1 : X1) (h : ∀ i, ∃ r : ℝ, val_main_v21 (F := Ideal) x0 x1 i = (r : EReal)) :
    ∀ b q, ∃ r : ℝ, shift x0 x1 b q = (r : EReal) := by
  intro b q
  haveI : Nonempty (Fin (S2x9216x2304.size 1)) := ⟨⟨0, by decide⟩⟩
  unfold shift
  rw [val_main_v24_apply, val_main_v23_apply, val_main_cst_5_apply]
  unfold val_main_v22
  rw [Host.reduce_eq_fold_single FloatOps.maximumf _ _ reducesTo_S2x9216x2304_S2x2304_d1 reduces_d1 h_S_,
    val_main_cst_4_apply]
  simp only [Ideal.maximumf_def, Ideal.ofBits_def, negInf_bits]
  rw [max_eq_right bot_le]
  exact fold_max_real _ fun k => h _

end Cert.RefRead

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.AttnLaws.lean ====
/-
  The spellings of attention named in AttnSpec agree on real arguments.

  Constants: the norm clamp is the real 9223372 / 2^63, the squared-norm clamp is its square, the scale is 40.
  Normalisation: for a real column with squared length s >= 0 and clamp c > 0,
    x * (sqrt (max s (c*c)))^-1 = x / max (sqrt s) c,   because sqrt is monotone and sqrt (c*c) = c.
  Read-out: for real scores s m, values v m and a real shift c, with Z = sum_m e^(s m) > 0,
    (sum_m v m e^(s m)) / Z = sum_m v m * (e^(s m - c) / sum_m' e^(s m' - c)),
  because e^(s - c) = e^s / e^c and the common factor e^c cancels.
-/
import proofs.«155069_g31954556682489_cont_9to1_1970_25_alg».proof.Proof.AttnSpec
import proofs.«155069_g31954556682489_cont_9to1_1970_25_alg».proof.Proof.LibRealSums

noncomputable section

open scoped BigOperators

namespace Cert.Attn

open Idealize.ShloMosaic Idealize.ShloMosaic.ValueIdx Cert.Lib.RealSums

variable {D M : Type} [Fintype D] [Fintype M]

/-! ## The constants -/

/-- The norm clamp as a real number: 9223372 / 2^63. -/
def epsR : ℝ := 9223372 / 9223372036854775808

theorem epsR_pos : 0 < epsR := by unfold epsR; norm_num

/-- The word 0x2B8CBCCC has exponent field 87 and mantissa 0x0CBCCC, so it denotes
    (2^23 + 0x0CBCCC) * 2^(87 - 127 - 23) = 9223372 * 2^-63. -/
theorem epsNorm_eq : epsNorm = (((9223372 : ℝ) / 9223372036854775808 : ℝ) : EReal) := by
  simp [epsNorm, Ideal.ofBits, Ideal.ieee, -EReal.coe_mul]
  norm_num

theorem epsNorm_eq' : epsNorm = (epsR : EReal) := epsNorm_eq

theorem epsNorm_pos : (0 : ℝ) < 9223372 / 9223372036854775808 := by norm_num

/-- 5316911940649 = 2305843^2, 9223372 = 4 * 2305843 and 2^126 = 16 * 2^122. -/
theorem epsSq_eq : epsSq = epsNorm * epsNorm := by
  rw [epsNorm_eq, ← EReal.coe_mul, epsSq]
  congr 1
  norm_num

theorem epsSq_eq' : epsSq = ((epsR * epsR : ℝ) : EReal) := by
  rw [epsSq_eq, epsNorm_eq', EReal.coe_mul]

/-- The word 0x42200000 has exponent field 132 and mantissa 0x200000: (2^23 + 2^21) * 2^(132 - 127 - 23) = 40. -/
theorem scale_eq : scale = ((40 : ℝ) : EReal) := by
  simp [scale, Ideal.ofBits, Ideal.ieee, -EReal.coe_mul]
  norm_num

/-! ## Normalising a real column -/

/-- The squared length of a real column is the coercion of the real sum of squares. -/
theorem sumSq_coe (r : D → ℝ) : sumSq (fun d => (r d : EReal)) = ((∑ d, r d * r d : ℝ) : EReal) := by
  rw [sumSq, coe_sum]
  exact Finset.sum_congr rfl fun d _ => (EReal.coe_mul _ _).symm

/-- The coercion of the reals into the extended reals is monotone, so it commutes with max. -/
theorem coe_max (a b : ℝ) : max (a : EReal) (b : EReal) = ((max a b : ℝ) : EReal) :=
  (EReal.coe_strictMono.monotone.map_max).symm

/-- The square root of a clamped square is the clamped root: sqrt is monotone and sqrt (c * c) = c for c ≥ 0. -/
theorem sqrt_max_sq (s c : ℝ) (hc : 0 ≤ c) : Real.sqrt (max s (c * c)) = max (Real.sqrt s) c := by
  have hm : Monotone Real.sqrt := fun a b h => Real.sqrt_le_sqrt h
  rw [hm.map_max, Real.sqrt_mul_self hc]

/-- Both normalisations of a real column, as one real expression. -/
theorem unitByNorm_coe (r : D → ℝ) (d : D) :
    unitByNorm (fun d => (r d : EReal)) d
      = ((r d * (max (Real.sqrt (∑ k, r k * r k)) epsR)⁻¹ : ℝ) : EReal) := by
  have hs : (0 : ℝ) ≤ ∑ k, r k * r k := Finset.sum_nonneg fun k _ => mul_self_nonneg (r k)
  have hpos : (0 : ℝ) < max (Real.sqrt (∑ k, r k * r k)) epsR := lt_max_of_lt_right epsR_pos
  rw [unitByNorm, sumSq_coe, Ideal.sqrt_coe, if_neg (not_lt.mpr hs), epsNorm_eq', coe_max,
    Ideal.div_coe hpos.ne', one_div, ← EReal.coe_mul]

theorem unitByRsqrt_coe (r : D → ℝ) (d : D) :
    unitByRsqrt (fun d => (r d : EReal)) d
      = ((r d * (max (Real.sqrt (∑ k, r k * r k)) epsR)⁻¹ : ℝ) : EReal) := by
  have hpos : (0 : ℝ) < max (∑ k, r k * r k) (epsR * epsR) :=
    lt_max_of_lt_right (mul_pos epsR_pos epsR_pos)
  rw [unitByRsqrt, sumSq_coe, epsSq_eq', coe_max, Ideal.rsqrt_coe, if_neg (not_lt.mpr hpos.le),
    if_neg hpos.ne', sqrt_max_sq _ _ epsR_pos.le, ← EReal.coe_mul]

/-- A column of reals, written as the coercion of its real witnesses. -/
theorem exists_real_fun {ι : Type} (x : ι → EReal) (hx : ∀ i, ∃ r : ℝ, x i = (r : EReal)) :
    ∃ r : ι → ℝ, x = fun i => (r i : EReal) := by
  choose r hr using hx
  exact ⟨r, funext hr⟩

/-- On a real column, multiplying by the reciprocal root of the clamped squared length is dividing by the clamped length. -/
theorem unit_eq (x : D → EReal) (hx : ∀ d, ∃ r : ℝ, x d = (r : EReal)) : unitByRsqrt x = unitByNorm x := by
  obtain ⟨r, rfl⟩ := exists_real_fun x hx
  funext d
  rw [unitByRsqrt_coe, unitByNorm_coe]

theorem unitByNorm_real (x : D → EReal) (hx : ∀ d, ∃ r : ℝ, x d = (r : EReal)) :
    ∀ d, ∃ r : ℝ, unitByNorm x d = (r : EReal) := by
  obtain ⟨r, rfl⟩ := exists_real_fun x hx
  intro d
  exact ⟨_, unitByNorm_coe r d⟩

theorem unitByRsqrt_real (x : D → EReal) (hx : ∀ d, ∃ r : ℝ, x d = (r : EReal)) :
    ∀ d, ∃ r : ℝ, unitByRsqrt x d = (r : EReal) := by
  rw [unit_eq x hx]; exact unitByNorm_real x hx

/-! ## Scores of real columns -/

theorem score_coe (k q : D → ℝ) :
    score (fun d => (k d : EReal)) (fun d => (q d : EReal)) = ((40 * ∑ d, k d * q d : ℝ) : EReal) := by
  rw [score, scale_eq, EReal.coe_mul, coe_sum]
  congr 1

theorem score_real (k q : D → EReal) (hk : ∀ d, ∃ r : ℝ, k d = (r : EReal)) (hq : ∀ d, ∃ r : ℝ, q d = (r : EReal)) :
    ∃ r : ℝ, score k q = (r : EReal) := by
  obtain ⟨k', rfl⟩ := exists_real_fun k hk
  obtain ⟨q', rfl⟩ := exists_real_fun q hq
  exact ⟨_, score_coe k' q'⟩

/-! ## The read-out -/

theorem readPlain_coe [Nonempty M] (v s : M → ℝ) :
    readPlain (fun m => (v m : EReal)) (fun m => (s m : EReal))
      = (((∑ m, v m * Real.exp (s m)) * (∑ m, Real.exp (s m))⁻¹ : ℝ) : EReal) := by
  have hZ : (0 : ℝ) < ∑ m, Real.exp (s m) := Finset.sum_pos (fun m _ => Real.exp_pos _) Finset.univ_nonempty
  have e1 : (∑ m, (v m : EReal) * Ideal.exp (s m : EReal)) = ((∑ m, v m * Real.exp (s m) : ℝ) : EReal) := by
    rw [coe_sum]; exact Finset.sum_congr rfl fun m _ => by rw [Ideal.exp_coe, EReal.coe_mul]
  have e2 : (∑ m, Ideal.exp (s m : EReal)) = ((∑ m, Real.exp (s m) : ℝ) : EReal) := by
    rw [coe_sum]; exact Finset.sum_congr rfl fun m _ => Ideal.exp_coe _
  rw [readPlain, e1, e2, Ideal.div_coe hZ.ne', one_div, ← EReal.coe_mul]

theorem readShifted_coe [Nonempty M] (v s : M → ℝ) (c : ℝ) :
    readShifted (fun m => (v m : EReal)) (fun m => (s m : EReal)) (c : EReal)
      = ((∑ m, v m * (Real.exp (s m - c) * (∑ m', Real.exp (s m' - c))⁻¹) : ℝ) : EReal) := by
  have hZ : (0 : ℝ) < ∑ m, Real.exp (s m - c) := Finset.sum_pos (fun m _ => Real.exp_pos _) Finset.univ_nonempty
  have e2 : (∑ m, Ideal.exp ((s m : EReal) - (c : EReal))) = ((∑ m, Real.exp (s m - c) : ℝ) : EReal) := by
    rw [coe_sum]; exact Finset.sum_congr rfl fun m _ => by rw [← EReal.coe_sub, Ideal.exp_coe]
  rw [readShifted, e2, coe_sum Finset.univ fun m => v m * (Real.exp (s m - c) * (∑ m', Real.exp (s m' - c))⁻¹)]
  refine Finset.sum_congr rfl fun m _ => ?_
  rw [← EReal.coe_sub, Ideal.exp_coe, Ideal.div_coe hZ.ne', one_div, ← EReal.coe_mul, ← EReal.coe_mul]

/-- Over the reals: shifting every exponent by c multiplies numerator and denominator of each weight by e^(-c). -/
theorem read_real_eq [Nonempty M] (v s : M → ℝ) (c : ℝ) :
    (∑ m, v m * Real.exp (s m)) * (∑ m, Real.exp (s m))⁻¹
      = ∑ m, v m * (Real.exp (s m - c) * (∑ m', Real.exp (s m' - c))⁻¹) := by
  have hZ : (0 : ℝ) < ∑ m, Real.exp (s m) := Finset.sum_pos (fun m _ => Real.exp_pos _) Finset.univ_nonempty
  have hE : (0 : ℝ) < Real.exp c := Real.exp_pos c
  have hZ' : (∑ m', Real.exp (s m' - c)) = (∑ m, Real.exp (s m)) / Real.exp c := by
    rw [Finset.sum_div]; exact Finset.sum_congr rfl fun m _ => Real.exp_sub _ _
  rw [hZ', Finset.sum_mul]
  refine Finset.sum_congr rfl fun m _ => ?_
  rw [Real.exp_sub]
  field_simp

theorem read_eq [Nonempty M] (v s : M → EReal) (c : EReal) (hv : ∀ m, ∃ r : ℝ, v m = (r : EReal))
    (hs : ∀ m, ∃ r : ℝ, s m = (r : EReal)) (hc : ∃ r : ℝ, c = (r : EReal)) :
    readPlain v s = readShifted v s c := by
  obtain ⟨v', rfl⟩ := exists_real_fun v hv
  obtain ⟨s', rfl⟩ := exists_real_fun s hs
  obtain ⟨c', rfl⟩ := hc
  rw [readPlain_coe, readShifted_coe, read_real_eq v' s' c']

/-! ## The arrays -/

theorem qcol_real (Q : SQ.Idx → EReal) (hQ : ∀ i, ∃ r : ℝ, Q i = (r : EReal)) (b : Fin 2) (q : Fin 2304) :
    ∀ d, ∃ r : ℝ, qcol Q b q d = (r : EReal) := fun d => hQ _

theorem kcol_real (K : SK.Idx → EReal) (hK : ∀ i, ∃ r : ℝ, K i = (r : EReal)) (b : Fin 2) (m : Fin 9216) :
    ∀ d, ∃ r : ℝ, kcol K b m d = (r : EReal) := fun d => hK _

theorem vrow_real (V : SV.Idx → EReal) (hV : ∀ i, ∃ r : ℝ, V i = (r : EReal)) (b : Fin 2) (v : Fin 512) :
    ∀ m, ∃ r : ℝ, vrow V b v m = (r : EReal) := fun m => hV _

theorem scoresRsqrt_eq (Q : SQ.Idx → EReal) (K : SK.Idx → EReal) (hQ : ∀ i, ∃ r : ℝ, Q i = (r : EReal))
    (hK : ∀ i, ∃ r : ℝ, K i = (r : EReal)) (b : Fin 2) (q : Fin 2304) :
    scoresRsqrt Q K b q = scoresNorm Q K b q := by
  funext m
  rw [scoresRsqrt, scoresNorm, unit_eq _ (kcol_real K hK b m), unit_eq _ (qcol_real Q hQ b q)]

theorem scoresNorm_real (Q : SQ.Idx → EReal) (K : SK.Idx → EReal) (hQ : ∀ i, ∃ r : ℝ, Q i = (r : EReal))
    (hK : ∀ i, ∃ r : ℝ, K i = (r : EReal)) :
    ∀ b q m, ∃ r : ℝ, scoresNorm Q K b q m = (r : EReal) := fun b q m =>
  score_real _ _ (unitByNorm_real _ (kcol_real K hK b m)) (unitByNorm_real _ (qcol_real Q hQ b q))

theorem attn_eq (Q : SQ.Idx → EReal) (K : SK.Idx → EReal) (V : SV.Idx → EReal) (c : Fin 2 → Fin 2304 → EReal)
    (hQ : ∀ i, ∃ r : ℝ, Q i = (r : EReal)) (hK : ∀ i, ∃ r : ℝ, K i = (r : EReal))
    (hV : ∀ i, ∃ r : ℝ, V i = (r : EReal)) (hc : ∀ b q, ∃ r : ℝ, c b q = (r : EReal)) :
    attnPlain Q K V = attnShifted Q K V c := by
  funext i
  exact (congrArg (readPlain (vrow V (i 0) (i 1))) (scoresRsqrt_eq Q K hQ hK (i 0) (i 2))).trans
    (read_eq _ _ _ (vrow_real V hV _ _) (scoresNorm_real Q K hQ hK _ _) (hc _ _))

end Cert.Attn

end
-- ==== Proof.Bridge.lean ====
/-
  The reference computes the same function.

  Read back one operation at a time, the reference is the attention read-out with the columns normalised by their norm
  and the softmax weights shifted by the running maximum (RefRead).  On real arrays that is the read-out with rsqrt
  normalisation and one division at the end (AttnLaws): the two normalisations agree because the clamp on the squared norm
  is the square of the clamp on the norm, and the shift cancels because it is a real number — the maximum of finitely many
  real scores.  Reshaping does not change which numbers an array holds, so the reshaped arguments are real when the
  arguments are.
-/
import proofs.«155069_g31954556682489_cont_9to1_1970_25_alg».proof.Proof.KernelResult
import proofs.«155069_g31954556682489_cont_9to1_1970_25_alg».proof.Proof.RefRead
import proofs.«155069_g31954556682489_cont_9to1_1970_25_alg».proof.Proof.RefReadShift
import proofs.«155069_g31954556682489_cont_9to1_1970_25_alg».proof.Proof.AttnLaws

noncomputable section

namespace Cert.Bridge

open Idealize.ShloMosaic Idealize.ShloMosaic.ValueIdx Cert.Attn Cert.RefRead

/-- Every entry of a reshaped array is an entry of the array. -/
theorem real_shapeCast {s t : Shape} (x : s.Idx → EReal) (h : s.ShapeCasts t) (hx : ∀ i, ∃ r : ℝ, x i = (r : EReal)) :
    ∀ j, ∃ r : ℝ, shapeCast t x h j = (r : EReal) := by
  intro j; unfold shapeCast; exact hx _

variable (x0 : X0) (x1 : X1) (x2 : X2)
  (h0 : ∀ i, ∃ r : ℝ, x0 i = (r : EReal)) (h1 : ∀ i, ∃ r : ℝ, x1 i = (r : EReal)) (h2 : ∀ i, ∃ r : ℝ, x2 i = (r : EReal))

include h0 in
theorem real_Q : ∀ i, ∃ r : ℝ, Qof x0 i = (r : EReal) := real_shapeCast x0 _ h0
include h1 in
theorem real_K : ∀ i, ∃ r : ℝ, Kof x1 i = (r : EReal) := real_shapeCast x1 _ h1
include h2 in
theorem real_V : ∀ i, ∃ r : ℝ, Vof x2 i = (r : EReal) := real_shapeCast x2 _ h2

include h0 h1 in
/-- The reference's scores are real numbers. -/
theorem scores_real : ∀ i, ∃ r : ℝ, Cert.ReferenceIdeal.Read.val_main_v21 (F := Ideal) x0 x1 i = (r : EReal) := by
  intro i
  obtain ⟨b, mm, q, rfl⟩ : ∃ (b : Fin 2) (mm : Fin 9216) (q : Fin 2304), i = ix3 b mm q := ⟨i 0, i 1, i 2, eq_ix3 i⟩
  rw [scores_eq]
  exact scoresNorm_real (Qof x0) (Kof x1) (real_Q x0 h0) (real_K x1 h1) b q mm

include h0 h1 h2 in
/-- Before the final reshape the reference holds the read-out with one division at the end. -/
theorem reference_readout :
    Cert.ReferenceIdeal.Read.val_main_v33 (F := Ideal) x0 x1 x2 = attnPlain (Qof x0) (Kof x1) (Vof x2) :=
  (ref_eq x0 x1 x2).trans
    (attn_eq (Qof x0) (Kof x1) (Vof x2) (shift x0 x1) (real_Q x0 h0) (real_K x1 h1) (real_V x2 h2)
      (shift_real x0 x1 (scores_real x0 x1 h0 h1))).symm

include h0 h1 h2 in
/-- THE REFERENCE'S RESULT is the kernel's function of the same arguments. -/
theorem reference_eq :
    Cert.ReferenceIdeal.Read.val_main_v34 (F := Ideal) x0 x1 x2 = Cert.KernelIdeal.Result.G x0 x1 x2 := by
  unfold Cert.ReferenceIdeal.Read.val_main_v34 Cert.KernelIdeal.Result.G
  rw [reference_readout x0 x1 x2 h0 h1 h2]
  rfl

end Cert.Bridge

end
-- ==== Proof.Finite.lean ====
/-
  The precondition says every entry of the three argument arrays is a real number.

  The printed predicate is  all(|a0| < +inf) and all(|a1| < +inf) and all(|a2| < +inf)  with +inf the word 0x7F800000.
  On the extended reals |x| = max x (-x); it is +inf exactly when x is one of the two infinities, so |x| < +inf
  leaves x a real.  An "and" of one-bit words is 1 only when both are, and a reduction by "and" over every axis that
  came out 1 met a 1 at every index.
-/
import proofs.«155069_g31954556682489_cont_9to1_1970_25_alg».proof.Defs
import Idealize.ShloMosaic.Lib.ReduceAll
import Idealize.ShloMosaic.Lib.ValueIdx

noncomputable section

namespace Cert.Finite

open Idealize.ShloMosaic Cert.Pre_finite_inputs

/-- The rank-0 shape has one index. -/
instance : Subsingleton S_.Idx := ⟨fun a b => funext fun d => d.elim0⟩

/-- The word 0x7F800000 is +inf. -/
theorem inf_word : Ideal.ofBits .f32 0x7F800000#32 = (⊤ : EReal) := by simp [Ideal.ofBits, Ideal.ieee]

/-- If |x| < +inf holds then x is a real: at either infinity |x| is +inf. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (⊤ : EReal) = 1#1 := by
    rw [← inf_word]; exact h
  induction x using EReal.rec with
  | bot => exact absurd h' (by simp [Ideal.cmp])
  | coe r => exact ⟨r, rfl⟩
  | top => exact absurd h' (by simp [Ideal.cmp])

/-- The printed predicate, decoded: it is all ones only if every entry of each array is a real. -/
theorem real_of_fn [Facts] (a0 : FVec Ideal S2x64x48x48 .f32) (a1 : FVec Ideal S2x64x4x48x48 .f32)
    (a2 : FVec Ideal S2x512x4x48x48 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

open Idealize.SL.Sem

variable [Cert.Pre_finite_inputs.Facts]
  {m : (ℓ : Loc Cert.KernelIdeal.nD Cert.KernelIdeal.τ Cert.KernelIdeal.sig) → Buf (Elt Ideal) ℓ}

/-- Under the precondition every entry of the first argument array is a real, on every device. -/
theorem real_arg0 (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (real_of_fn _ _ _ (h c)).1

/-- Likewise the second. -/
theorem real_arg1 (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (real_of_fn _ _ _ (h c)).2.1

/-- Likewise the third. -/
theorem real_arg2 (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (real_of_fn _ _ _ (h c)).2.2

end Cert.Finite

end
-- ==== Proof.lean ====
/-
  Dense attention with L2-normalised keys: a block-streaming kernel against its plain reference, on the extended reals.

  Per batch entry the result is out[v, q] = Σ_m V[v, m] · softmax_m (40 · Σ_d K̂[d, m] · Q̂[d, q]) over 9216 memory positions,
  the key and query columns scaled to unit length.  The kernel streams the memory in 9 blocks of 1024, keeping a running
  denominator Σ e^s and numerator Σ V·e^s with no maximum shift, and divides once after the last block; it scales a
  column x by rsqrt (max (Σ x²) ε²).  The reference divides a column by max (√Σ x²) ε, forms the softmax weights with the
  usual shift by the maximum, and then multiplies by the values.  The clamp ε² of the kernel is named as the exact square
  of the reference's clamp ε (the one ledger entry, twice: once for the queries, once for the keys), and with that the two
  programs are the same function of real arguments:
    · the kernel's result array, point by point and then as a whole (KernelPieces, KernelPayloads, KernelBlocks, KernelAccum,
      KernelHost, KernelResult), is G of the arguments;
    · the reference's result, one operation at a time (RefRead, RefReadShift), is the shifted spelling of the same read-out;
    · the spellings agree on real arrays (AttnLaws, Bridge), and the precondition makes the arguments real (Finite).
  The three frames are the generated ones; the reference's is its generated run with the result dropped.
-/
import proofs.«155069_g31954556682489_cont_9to1_1970_25_alg».proof.Defs
import proofs.«155069_g31954556682489_cont_9to1_1970_25_alg».proof.Proof.Gen.Kernel
import proofs.«155069_g31954556682489_cont_9to1_1970_25_alg».proof.Proof.Gen.Kernel.Skeleton
import proofs.«155069_g31954556682489_cont_9to1_1970_25_alg».proof.Proof.Gen.Kernel.Launch
import proofs.«155069_g31954556682489_cont_9to1_1970_25_alg».proof.Proof.Gen.Kernel.Points
import proofs.«155069_g31954556682489_cont_9to1_1970_25_alg».proof.Proof.Gen.Kernel.Frame
import proofs.«155069_g31954556682489_cont_9to1_1970_25_alg».proof.Proof.Gen.KernelIdeal
import proofs.«155069_g31954556682489_cont_9to1_1970_25_alg».proof.Proof.Gen.KernelIdeal.Skeleton
import proofs.«155069_g31954556682489_cont_9to1_1970_25_alg».proof.Proof.Gen.KernelIdeal.Launch
import proofs.«155069_g31954556682489_cont_9to1_1970_25_alg».proof.Proof.Gen.KernelIdeal.Points
import proofs.«155069_g31954556682489_cont_9to1_1970_25_alg».proof.Proof.Gen.KernelIdeal.Frame
import proofs.«155069_g31954556682489_cont_9to1_1970_25_alg».proof.Proof.Gen.ReferenceIdeal
import proofs.«155069_g31954556682489_cont_9to1_1970_25_alg».proof.Proof.Gen.Pre_finite_inputs
import proofs.«155069_g31954556682489_cont_9to1_1970_25_alg».proof.Proof.Gen.ReferenceIdeal.Run
import proofs.«155069_g31954556682489_cont_9to1_1970_25_alg».proof.Proof.Gen.ReferenceIdeal.Read
import proofs.«155069_g31954556682489_cont_9to1_1970_25_alg».proof.Proof.KernelResult
import proofs.«155069_g31954556682489_cont_9to1_1970_25_alg».proof.Proof.Bridge
import proofs.«155069_g31954556682489_cont_9to1_1970_25_alg».proof.Proof.Finite
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts] [hPre : Cert.Pre_finite_inputs.Facts]

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The clamp on the squared norm is named the exact square of the reference's clamp on the norm, at both of its sites. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl⟩

/-- From memories that agree on real arguments both programs end with the same array: G of the arguments. -/
theorem algebraic : Cert.algebraic_KernelIdeal_ReferenceIdeal := by
  intro m ρ m' ρ' hpre hagree
  refine ⟨fun c => Cert.KernelIdeal.Result.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.KernelIdeal.Result.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v34_eq, (hagree c).1, (hagree c).2.1, (hagree c).2.2]
  exact Cert.Bridge.reference_eq _ _ _ (Cert.Finite.real_arg0 hpre c) (Cert.Finite.real_arg1 hpre c) (Cert.Finite.real_arg2 hpre c)

end Claims

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
